-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x1024x1024 .f32) (main_arg1 : FVec F S1024x3072 .f32) (main_arg2 : FVec F S3072 .f32) (main_arg3 : FVec F S1024x1024 .f32) (main_arg4 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x1024x1024 : Shape := ⟨3, ![8, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S8x1024x16x192 : Shape := ⟨4, ![8, 1024, 16, 192]⟩
abbrev S8x16x1024x192 : Shape := ⟨4, ![8, 16, 1024, 192]⟩
abbrev S8x16x1024x64 : Shape := ⟨4, ![8, 16, 1024, 64]⟩
abbrev S1x2x1024x64 : Shape := ⟨4, ![1, 2, 1024, 64]⟩
abbrev S2x1024x64 : Shape := ⟨3, ![2, 1024, 64]⟩
abbrev S2x1024x1024 : Shape := ⟨3, ![2, 1024, 1024]⟩
abbrev S2x1024 : Shape := ⟨2, ![2, 1024]⟩
abbrev S2x1024x1 : Shape := ⟨3, ![2, 1024, 1]⟩
abbrev S8x1024x16x64 : Shape := ⟨4, ![8, 1024, 16, 64]⟩
abbrev S1x1024 : Shape := ⟨2, ![1, 1024]⟩

abbrev nBuf : Space → Nat
  | .hbm => 21
  | .vmem => 20
  | .smem => 0
  | _ => 0

abbrev bufTy : (tb : Table) → Fin (tcTables nBuf tb) → BufTy
  | .hbm, ⟨0, _⟩ => ⟨S8x1024x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S1024x3072, .bf16⟩
  | .hbm, ⟨7, _⟩ => ⟨S1024x1024, .bf16⟩
  | .hbm, ⟨8, _⟩ => ⟨S1x3072, .f32⟩
  | .hbm, ⟨9, _⟩ => ⟨S8192x3072, .bf16⟩
  | .hbm, ⟨10, _⟩ => ⟨S8x1024x16x192, .bf16⟩
  | .hbm, ⟨11, _⟩ => ⟨S8x16x1024x192, .bf16⟩
  | .hbm, ⟨12, _⟩ => ⟨S8x16x1024x64, .bf16⟩
  | .hbm, ⟨13, _⟩ => ⟨S8x16x1024x64, .bf16⟩
  | .hbm, ⟨14, _⟩ => ⟨S8x16x1024x64, .bf16⟩
  | .hbm, ⟨15, _⟩ => ⟨S8x16x1024x64, .bf16⟩
  | .hbm, ⟨16, _⟩ => ⟨S8x1024x16x64, .bf16⟩
  | .hbm, ⟨17, _⟩ => ⟨S8192x1024, .bf16⟩
  | .hbm, ⟨18, _⟩ => ⟨S1x1024, .f32⟩
  | .hbm, ⟨19, _⟩ => ⟨S8192x1024, .f32⟩
  | .hbm, ⟨20, _⟩ => ⟨S8x1024x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x2x1024x64, .bf16⟩
  | .local _ .vmem, ⟨7, _⟩ => ⟨S1x2x1024x64, .bf16⟩
  | .local _ .vmem, ⟨8, _⟩ => ⟨S1x2x1024x64, .bf16⟩
  | .local _ .vmem, ⟨9, _⟩ => ⟨S1x2x1024x64, .bf16⟩
  | .local _ .vmem, ⟨10, _⟩ => ⟨S1x2x1024x64, .bf16⟩
  | .local _ .vmem, ⟨11, _⟩ => ⟨S1x2x1024x64, .bf16⟩
  | .local _ .vmem, ⟨12, _⟩ => ⟨S1x2x1024x64, .bf16⟩
  | .local _ .vmem, ⟨13, _⟩ => ⟨S1x2x1024x64, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x2x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S8x1024x1024_S8192x1024 : S8x1024x1024.ShapeCasts S8192x1024
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S8x1024x16x192 : S8192x3072.ShapeCasts S8x1024x16x192
  transposes_S8x1024x16x192_S8x16x1024x192_0_2_1_3 : S8x1024x16x192.Transposes [0, 2, 1, 3] S8x16x1024x192
  slices_S8x16x1024x192_S8x16x1024x64_0_0_0_0 : S8x16x1024x192.Slices ![0, 0, 0, 0] S8x16x1024x64
  slices_S8x16x1024x192_S8x16x1024x64_0_0_0_64 : S8x16x1024x192.Slices ![0, 0, 0, 64] S8x16x1024x64
  slices_S8x16x1024x192_S8x16x1024x64_0_0_0_128 : S8x16x1024x192.Slices ![0, 0, 0, 128] S8x16x1024x64
  inb_S1x2x1024x64_S1x2x1024x64_0_0_0_0 : ∀ a, (![0, 0, 0, 0] : Fin 4 → Nat) a + S1x2x1024x64.size a ≤ S1x2x1024x64.size a
  h_S1x2x1024x64 : 0 < S1x2x1024x64.numel
  shapeCasts_S1x2x1024x64_S2x1024x64 : S1x2x1024x64.ShapeCasts S2x1024x64
  reduces_S2x1024x1024_S2x1024 : S2x1024x1024.Reduces [2] S2x1024
  shapeCasts_S2x1024_S2x1024x1 : S2x1024.ShapeCasts S2x1024x1
  broadcasts_S2x1024x1_S2x1024x1024 : S2x1024x1.Broadcasts S2x1024x1024
  shapeCasts_S2x1024x64_S1x2x1024x64 : S2x1024x64.ShapeCasts S1x2x1024x64
  packedbf16_S1x2x1024x64_S1x2x1024x64_0_0_0_0 : (Rect.unit (s := S1x2x1024x64) ![0, 0, 0, 0] S1x2x1024x64.size inb_S1x2x1024x64_S1x2x1024x64_0_0_0_0).PackedRows (EltTy.packing .bf16)
  transposes_S8x16x1024x64_S8x1024x16x64_0_2_1_3 : S8x16x1024x64.Transposes [0, 2, 1, 3] S8x1024x16x64
  shapeCasts_S8x1024x16x64_S8192x1024 : S8x1024x16x64.ShapeCasts S8192x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S8x1024x1024 : S8192x1024.ShapeCasts S8x1024x1024
  dot_S512x1024_S1024x3072_S512x3072_1_0_0_1_n_n_wf : DotDims.WF S512x1024 S1024x3072 S512x3072 [1] [0] [0] [1] [] []
  dot_S2x1024x64_S2x1024x64_S2x1024x1024_2_2_1_1_0_0_wf : DotDims.WF S2x1024x64 S2x1024x64 S2x1024x1024 [2] [2] [1] [1] [0] [0]
  dot_S2x1024x1024_S2x1024x64_S2x1024x64_2_1_1_2_0_0_wf : DotDims.WF S2x1024x1024 S2x1024x64 S2x1024x64 [2] [1] [1] [2] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x1024x64.size a ≤ S8x16x1024x64.size a
  hwx1_0 : ∀ i : grid1.Coords, EltTy.bits .bf16 = 32 ∨ (Rect.block (s := S8x16x1024x64) S1x2x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x1024x64.size a ≤ S8x16x1024x64.size a
  hwx1_1 : ∀ i : grid1.Coords, EltTy.bits .bf16 = 32 ∨ (Rect.block (s := S8x16x1024x64) S1x2x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2x1024x64.size a ≤ S8x16x1024x64.size a
  hwx1_2 : ∀ i : grid1.Coords, EltTy.bits .bf16 = 32 ∨ (Rect.block (s := S8x16x1024x64) S1x2x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2x1024x64.size a ≤ S8x16x1024x64.size a
  hwx1_3 : ∀ i : grid1.Coords, EltTy.bits .bf16 = 32 ∨ (Rect.block (s := S8x16x1024x64) S1x2x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S2x1024x64_S2x1024x64_S2x1024x1024_2_2_1_1_0_0 : DotDims S2x1024x64 S2x1024x64 S2x1024x1024 where
  lhsContracting := [2]
  rhsContracting := [2]
  lhsNonContracting := [1]
  rhsNonContracting := [1]
  lhsBatch := [0]
  rhsBatch := [0]
  wf := dot_S2x1024x64_S2x1024x64_S2x1024x1024_2_2_1_1_0_0_wf
def dot_S2x1024x1024_S2x1024x64_S2x1024x64_2_1_1_2_0_0 : DotDims S2x1024x1024 S2x1024x64 S2x1024x64 where
  lhsContracting := [2]
  rhsContracting := [1]
  lhsNonContracting := [1]
  rhsNonContracting := [2]
  lhsBatch := [0]
  rhsBatch := [0]
  wf := dot_S2x1024x1024_S2x1024x64_S2x1024x64_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1x2x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x2x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x2x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S8x1024x3072 : Shape := ⟨3, ![8, 1024, 3072]⟩
abbrev S1x1x3072 : Shape := ⟨3, ![1, 1, 3072]⟩
abbrev S8x1024x16x192 : Shape := ⟨4, ![8, 1024, 16, 192]⟩
abbrev S8x16x1024x192 : Shape := ⟨4, ![8, 16, 1024, 192]⟩
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩
abbrev S8x1024x16x64 : Shape := ⟨4, ![8, 1024, 16, 64]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8x1024x3072, .f32⟩
  | .hbm, ⟨6, _⟩ => ⟨S1x1x3072, .f32⟩
  | .hbm, ⟨7, _⟩ => ⟨S8x1024x3072, .f32⟩
  | .hbm, ⟨8, _⟩ => ⟨S8x1024x3072, .f32⟩
  | .hbm, ⟨9, _⟩ => ⟨S8x1024x16x192, .f32⟩
  | .hbm, ⟨10, _⟩ => ⟨S8x16x1024x192, .f32⟩
  | .hbm, ⟨11, _⟩ => ⟨S8x16x1024x64, .f32⟩
  | .hbm, ⟨12, _⟩ => ⟨S8x16x1024x64, .f32⟩
  | .hbm, ⟨13, _⟩ => ⟨S8x16x1024x64, .f32⟩
  | .hbm, ⟨14, _⟩ => ⟨S8x16x1024x1024, .f32⟩
  | .hbm, ⟨15, _⟩ => ⟨S_, .f32⟩
  | .hbm, ⟨16, _⟩ => ⟨S_, .f32⟩
  | .hbm, ⟨17, _⟩ => ⟨S8x16x1024x1024, .f32⟩
  | .hbm, ⟨18, _⟩ => ⟨S8x16x1024x1024, .f32⟩
  | .hbm, ⟨19, _⟩ => ⟨S_, .f32⟩
  | .hbm, ⟨20, _⟩ => ⟨S8x16x1024, .f32⟩
  | .hbm, ⟨21, _⟩ => ⟨S_, .f32⟩
  | .hbm, ⟨22, _⟩ => ⟨S8x16x1024, .f32⟩
  | .hbm, ⟨23, _⟩ => ⟨S8x16x1024, .f32⟩
  | .hbm, ⟨24, _⟩ => ⟨S8x16x1024x1, .f32⟩
  | .hbm, ⟨25, _⟩ => ⟨S8x16x1024x1024, .f32⟩
  | .hbm, ⟨26, _⟩ => ⟨S8x16x1024x1024, .f32⟩
  | .hbm, ⟨27, _⟩ => ⟨S8x16x1024x1024, .f32⟩
  | .hbm, ⟨28, _⟩ => ⟨S_, .f32⟩
  | .hbm, ⟨29, _⟩ => ⟨S8x16x1024, .f32⟩
  | .hbm, ⟨30, _⟩ => ⟨S8x16x1024x1, .f32⟩
  | .hbm, ⟨31, _⟩ => ⟨S8x16x1024x1024, .f32⟩
  | .hbm, ⟨32, _⟩ => ⟨S8x16x1024x1024, .f32⟩
  | .hbm, ⟨33, _⟩ => ⟨S8x16x1024x64, .f32⟩
  | .hbm, ⟨34, _⟩ => ⟨S8x1024x16x64, .f32⟩
  | .hbm, ⟨35, _⟩ => ⟨S8x1024x1024, .f32⟩
  | .hbm, ⟨36, _⟩ => ⟨S8x1024x1024, .f32⟩
  | .hbm, ⟨37, _⟩ => ⟨S1x1x1024, .f32⟩
  | .hbm, ⟨38, _⟩ => ⟨S8x1024x1024, .f32⟩
  | .hbm, ⟨39, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x1024x3072_0_1_2 : S1x1x3072.BroadcastsInDim S8x1024x3072 (![0, 1, 2] : Fin 3 → Fin S8x1024x3072.rank)
  shapeCasts_S8x1024x3072_S8x1024x16x192 : S8x1024x3072.ShapeCasts S8x1024x16x192
  transposes_S8x1024x16x192_S8x16x1024x192_0_2_1_3 : S8x1024x16x192.Transposes [0, 2, 1, 3] S8x16x1024x192
  slices_S8x16x1024x192_S8x16x1024x64_0_0_0_0 : S8x16x1024x192.Slices ![0, 0, 0, 0] S8x16x1024x64
  slices_S8x16x1024x192_S8x16x1024x64_0_0_0_64 : S8x16x1024x192.Slices ![0, 0, 0, 64] S8x16x1024x64
  slices_S8x16x1024x192_S8x16x1024x64_0_0_0_128 : S8x16x1024x192.Slices ![0, 0, 0, 128] S8x16x1024x64
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  dot_S8x1024x1024_S1024x3072_S8x1024x3072_2_0_01_1_n_n_wf : DotDims.WF S8x1024x1024 S1024x3072 S8x1024x3072 [2] [0] [0, 1] [1] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]
  dot_S8x1024x1024_S1024x1024_S8x1024x1024_2_0_01_1_n_n_wf : DotDims.WF S8x1024x1024 S1024x1024 S8x1024x1024 [2] [0] [0, 1] [1] [] []

variable [Facts₀]

def dot_S8x1024x1024_S1024x3072_S8x1024x3072_2_0_01_1_n_n : DotDims S8x1024x1024 S1024x3072 S8x1024x3072 where
  lhsContracting := [2]
  rhsContracting := [0]
  lhsNonContracting := [0, 1]
  rhsNonContracting := [1]
  lhsBatch := []
  rhsBatch := []
  wf := dot_S8x1024x1024_S1024x3072_S8x1024x3072_2_0_01_1_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf
def dot_S8x1024x1024_S1024x1024_S8x1024x1024_2_0_01_1_n_n : DotDims S8x1024x1024 S1024x1024 S8x1024x1024 where
  lhsContracting := [2]
  rhsContracting := [0]
  lhsNonContracting := [0, 1]
  rhsNonContracting := [1]
  lhsBatch := []
  rhsBatch := []
  wf := dot_S8x1024x1024_S1024x1024_S8x1024x1024_2_0_01_1_n_n_wf

class Facts : Prop extends Facts₀ where

variable [Facts]
-- ==== Proof.Run.lean ====
/-
  The run of the kernel's program with its RESULT named. The program is seven segments: host operations, the first
  linear layer, host operations, the attention region, host operations, the second linear layer, one last reshape.
  Every weakly fair execution from a memory with zero counters terminates without a fault, the result buffer ends
  at the last segment boundary's contents `W7` (the fold of the segments over the launch memory: a host stretch
  applies its operations, a region replaces its output array by what its write-backs leave), and the five argument
  arrays end as launched.
-/
import proofs.«110953_j7438883357444_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' run read at the result buffer and at the arguments: the final state holds, at every unscoped
    buffer, the last boundary's contents; the result is one of those buffers, and each argument's contents walk back
    through the fold to the launch memory. -/
theorem run_result : θ_run defs (onTc (τ := τ) (main (F := F))) ⟨m, fun _ => 0, ρ⟩ (fun r => ∀ c : Dev nD,
      r.2.mem ((c.tc : Thread nD τ).loc main_v15) = W7 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v15 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.RunValue

end
-- ==== Proof.Spec.lean ====
/-
  The mathematics of the three kernels, index by index on the extended reals, with no program in sight.

  * `dense x w b`: a linear layer. Entry (r, e) of the result is the inner product of row r of `x` with column e
    of `w`, plus entry e of the one-row bias `b`.
  * `attn q k v`: softmax attention, one head (b, h) at a time. The score of query row s against key row t is
    their inner product over the 64 head features times the scale word 0x3E000000 (the float 1/8); a row of
    scores is shifted by its maximum (the fold of `max` from the word 0xFF800000, minus infinity), exponentiated
    and divided by the row's sum; entry (b, h, s, d) of the result is the sum over t of that weight times
    v(b, h, t, d).
-/
import Idealize.ShloMosaic.PureOps.Ideal
import Idealize.ShloMosaic.Lib.ValueIdx

noncomputable section

namespace Cert.Mha

open Idealize.ShloMosaic Idealize.ShloMosaic.ValueIdx

/-- A linear layer: `(x · w)(r, e) + b(0, e)`. -/
def dense {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal := fun j =>
  (∑ k : Fin K, x (ix2 (⟨(j 0).val, (j 0).isLt⟩ : Fin M) k) * w (ix2 k (⟨(j 1).val, (j 1).isLt⟩ : Fin N)))
    + b (ix2 (0 : Fin 1) (⟨(j 1).val, (j 1).isLt⟩ : Fin N))

theorem dense_apply {M K N : Nat} (x : (⟨2, ![M, K]⟩ : Shape).Idx → EReal) (w : (⟨2, ![K, N]⟩ : Shape).Idx → EReal)
    (b : (⟨2, ![1, N]⟩ : Shape).Idx → EReal) (r : Fin M) (e : Fin N) :
    dense x w b (ix2 r e) = (∑ k : Fin K, x (ix2 r k) * w (ix2 k e)) + b (ix2 (0 : Fin 1) e) := rfl

/-- Queries, keys, values and the attention output: batch 8, 16 heads, 1024 positions, 64 features. -/
abbrev Heads : Type := (⟨4, ![8, 16, 1024, 64]⟩ : Shape).Idx → EReal

/-- The scaled score of query position `s` against key position `t` in head `(b, h)`. -/
def score (q k : Heads) (b : Fin 8) (h : Fin 16) (s t : Fin 1024) : EReal :=
  (∑ d : Fin 64, q (ix4 b h s d) * k (ix4 b h t d)) * Ideal.ofBits .f32 0x3E000000#32

/-- The maximum of a row of 1024 scores, folded from minus infinity. -/
def rowMax (f : Fin 1024 → EReal) : EReal :=
  (Finset.univ : Finset (Fin 1024)).fold max (Ideal.ofBits .f32 0xFF800000#32) f

/-- The exponential of a score shifted by its row's maximum. -/
def expo (q k : Heads) (b : Fin 8) (h : Fin 16) (s t : Fin 1024) : EReal :=
  Ideal.exp (score q k b h s t - rowMax (score q k b h s))

/-- The softmax weight of key position `t` for query position `s`. -/
def prob (q k : Heads) (b : Fin 8) (h : Fin 16) (s t : Fin 1024) : EReal :=
  Ideal.div (expo q k b h s t) (∑ t' : Fin 1024, expo q k b h s t')

/-- Softmax attention. -/
def attn (q k v : Heads) : Heads := fun j =>
  ∑ t : Fin 1024, prob q k (⟨(j 0).val, (j 0).isLt⟩ : Fin 8) (⟨(j 1).val, (j 1).isLt⟩ : Fin 16) (⟨(j 2).val, (j 2).isLt⟩ : Fin 1024) t
    * v (ix4 (⟨(j 0).val, (j 0).isLt⟩ : Fin 8) (⟨(j 1).val, (j 1).isLt⟩ : Fin 16) t (⟨(j 3).val, (j 3).isLt⟩ : Fin 64))

theorem attn_apply (q k v : Heads) (b : Fin 8) (h : Fin 16) (s : Fin 1024) (d : Fin 64) :
    attn q k v (ix4 b h s d) = ∑ t : Fin 1024, prob q k b h s t * v (ix4 b h t d) := rfl

end Cert.Mha

end
-- ==== Proof.Fold.lean ====
/-
  The kernel program's result buffer, read back through the seven segments of its run to the five arguments.
-/
import proofs.«110953_j7438883357444_2_alg».proof.Proof.Gen.KernelIdeal.Frame
import proofs.«110953_j7438883357444_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The kernel's result as one function of the five arguments

Reading the segment boundaries backwards from the result: the last reshape of the second linear layer's output; that
layer applied to the attention output (heads moved back beside the features and flattened to rows), the output weight
and the bias as a one-row matrix; the attention of the three 64-wide slices of the first layer's output, seen as
[batch, head, position, 192]; the first layer applied to the input flattened to rows, the fused weight and the fused
bias as a one-row matrix. Rounding to bf16 is the identity on the extended reals. -/

/-- The first linear layer's output with the head axis moved beside the batch: [8, 16, 1024, 192]. -/
def qkvK (a0 : S8x1024x1024.Idx → EReal) (a1 : S1024x3072.Idx → EReal) (a2 : S3072.Idx → EReal) : S8x16x1024x192.Idx → EReal :=
  transpose S8x16x1024x192 [0, 2, 1, 3]
    (shapeCast S8x1024x16x192
      (Cert.Mha.dense (M := 8192) (K := 1024) (N := 3072) (shapeCast S8192x1024 a0 shapeCasts_S8x1024x1024_S8192x1024) a1
        (shapeCast S1x3072 a2 shapeCasts_S3072_S1x3072))
      shapeCasts_S8192x3072_S8x1024x16x192)
    transposes_S8x1024x16x192_S8x16x1024x192_0_2_1_3

/-- The attention output of the three slices of `qkvK`. -/
def attnK (a0 : S8x1024x1024.Idx → EReal) (a1 : S1024x3072.Idx → EReal) (a2 : S3072.Idx → EReal) : S8x16x1024x64.Idx → EReal :=
  Cert.Mha.attn
    (extractStridedSlice S8x16x1024x64 ![0, 0, 0, 0] (qkvK a0 a1 a2) slices_S8x16x1024x192_S8x16x1024x64_0_0_0_0)
    (extractStridedSlice S8x16x1024x64 ![0, 0, 0, 64] (qkvK a0 a1 a2) slices_S8x16x1024x192_S8x16x1024x64_0_0_0_64)
    (extractStridedSlice S8x16x1024x64 ![0, 0, 0, 128] (qkvK a0 a1 a2) slices_S8x16x1024x192_S8x16x1024x64_0_0_0_128)

/-- The whole kernel program's result. -/
def resK (a0 : S8x1024x1024.Idx → EReal) (a1 : S1024x3072.Idx → EReal) (a2 : S3072.Idx → EReal)
    (a3 : S1024x1024.Idx → EReal) (a4 : S1024.Idx → EReal) : S8x1024x1024.Idx → EReal :=
  shapeCast S8x1024x1024
    (Cert.Mha.dense (M := 8192) (K := 1024) (N := 1024)
      (shapeCast S8192x1024
        (transpose S8x1024x16x64 [0, 2, 1, 3] (attnK a0 a1 a2) transposes_S8x16x1024x64_S8x1024x16x64_0_2_1_3)
        shapeCasts_S8x1024x16x64_S8192x1024)
      a3 (shapeCast S1x1024 a4 shapeCasts_S1024_S1x1024))
    shapeCasts_S8192x1024_S8x1024x1024

/-- What each region leaves in its output array, as a function of the arrays it finds: the three facts the fold
    takes from the regions' own value lemmas. -/
structure RegionValues : Prop where
  r0 : ∀ (V : (c : Dev nD) → (b : Ref sig .tc) → Buf (Elt Ideal) ((c : Thread nD τ).loc b)) (c : Dev nD),
    (dat0 (F := Ideal) V c).arrAt 3 cfg0.N = Cert.Mha.dense (M := 8192) (K := 1024) (N := 3072) (V c main_v0) (V c main_v1) (V c main_v3)
  r1 : ∀ (V : (c : Dev nD) → (b : Ref sig .tc) → Buf (Elt Ideal) ((c : Thread nD τ).loc b)) (c : Dev nD),
    (dat1 (F := Ideal) V c).arrAt 3 cfg1.N = Cert.Mha.attn (V c main_v7) (V c main_v8) (V c main_v9)
  r2 : ∀ (V : (c : Dev nD) → (b : Ref sig .tc) → Buf (Elt Ideal) ((c : Thread nD τ).loc b)) (c : Dev nD),
    (dat2 (F := Ideal) V c).arrAt 3 cfg2.N = Cert.Mha.dense (M := 8192) (K := 1024) (N := 1024) (V c main_v12) (V c main_v2) (V c main_v13)

/-! ### Region 0's entry contents -/

theorem e_v0 : W1 m ρ c (Proc.devRef .tc main_v0)
    = shapeCast S8192x1024 (m ((c : Thread nD τ).loc main_arg0)) shapeCasts_S8x1024x1024_S8192x1024 := by
  show StableHlo.after hostOps0 (W0 m ρ c) (Proc.devRef .tc main_v0) = _
  after_results
  rfl

theorem e_v1 : W1 m ρ c (Proc.devRef .tc main_v1) = (m ((c : Thread nD τ).loc main_arg1) : S1024x3072.Idx → EReal) := by
  show StableHlo.after hostOps0 (W0 m ρ c) (Proc.devRef .tc main_v1) = _
  after_results
  rfl

theorem e_v2 : W1 m ρ c (Proc.devRef .tc main_v2) = (m ((c : Thread nD τ).loc main_arg3) : S1024x1024.Idx → EReal) := by
  show StableHlo.after hostOps0 (W0 m ρ c) (Proc.devRef .tc main_v2) = _
  after_results
  rfl

theorem e_v3 : W1 m ρ c (Proc.devRef .tc main_v3)
    = shapeCast S1x3072 (m ((c : Thread nD τ).loc main_arg2)) shapeCasts_S3072_S1x3072 := by
  show StableHlo.after hostOps0 (W0 m ρ c) (Proc.devRef .tc main_v3) = _
  after_results
  rfl

theorem e_arg4_1 : W1 m ρ c (Proc.devRef .tc main_arg4) = m ((c : Thread nD τ).loc main_arg4) := by
  show StableHlo.after hostOps0 (W0 m ρ c) (Proc.devRef .tc main_arg4) = _
  after_results

/-! ### Region 0's output and region 1's entry contents -/

theorem e_v4 (H : RegionValues) : W2 m ρ c (Proc.devRef .tc main_v4)
    = Cert.Mha.dense (M := 8192) (K := 1024) (N := 3072)
        (shapeCast S8192x1024 (m ((c : Thread nD τ).loc main_arg0)) shapeCasts_S8x1024x1024_S8192x1024)
        (m ((c : Thread nD τ).loc main_arg1) : S1024x3072.Idx → EReal)
        (shapeCast S1x3072 (m ((c : Thread nD τ).loc main_arg2)) shapeCasts_S3072_S1x3072) := by
  refine (W2_arr m ρ c 3).trans ?_
  rw [H.r0 (V1 m ρ) c]
  show Cert.Mha.dense (W1 m ρ c (Proc.devRef .tc main_v0)) (W1 m ρ c (Proc.devRef .tc main_v1)) (W1 m ρ c (Proc.devRef .tc main_v3)) = _
  rw [e_v0, e_v1, e_v3]

theorem e_v6 : W3 m ρ c (Proc.devRef .tc main_v6)
    = transpose S8x16x1024x192 [0, 2, 1, 3]
        (shapeCast S8x1024x16x192 (W2 m ρ c (Proc.devRef .tc main_v4)) shapeCasts_S8192x3072_S8x1024x16x192)
        transposes_S8x1024x16x192_S8x16x1024x192_0_2_1_3 := by
  show StableHlo.after hostOps1 (W2 m ρ c) (Proc.devRef .tc main_v6) = _
  after_results
  rfl

theorem e_v7 : W3 m ρ c (Proc.devRef .tc main_v7)
    = extractStridedSlice S8x16x1024x64 ![0, 0, 0, 0] (W3 m ρ c (Proc.devRef .tc main_v6)) slices_S8x16x1024x192_S8x16x1024x64_0_0_0_0 := by
  rw [e_v6]
  show StableHlo.after hostOps1 (W2 m ρ c) (Proc.devRef .tc main_v7) = _
  after_results
  rfl

theorem e_v8 : W3 m ρ c (Proc.devRef .tc main_v8)
    = extractStridedSlice S8x16x1024x64 ![0, 0, 0, 64] (W3 m ρ c (Proc.devRef .tc main_v6)) slices_S8x16x1024x192_S8x16x1024x64_0_0_0_64 := by
  rw [e_v6]
  show StableHlo.after hostOps1 (W2 m ρ c) (Proc.devRef .tc main_v8) = _
  after_results
  rfl

theorem e_v9 : W3 m ρ c (Proc.devRef .tc main_v9)
    = extractStridedSlice S8x16x1024x64 ![0, 0, 0, 128] (W3 m ρ c (Proc.devRef .tc main_v6)) slices_S8x16x1024x192_S8x16x1024x64_0_0_0_128 := by
  rw [e_v6]
  show StableHlo.after hostOps1 (W2 m ρ c) (Proc.devRef .tc main_v9) = _
  after_results
  rfl

theorem e_v6' (H : RegionValues) : W3 m ρ c (Proc.devRef .tc main_v6)
    = qkvK (m ((c : Thread nD τ).loc main_arg0)) (m ((c : Thread nD τ).loc main_arg1)) (m ((c : Thread nD τ).loc main_arg2)) := by
  rw [e_v6, e_v4 m ρ c H]; rfl

theorem e_v2_3 : W3 m ρ c (Proc.devRef .tc main_v2) = (m ((c : Thread nD τ).loc main_arg3) : S1024x1024.Idx → EReal) := by
  show StableHlo.after hostOps1 (W2 m ρ c) (Proc.devRef .tc main_v2) = _
  after_results
  exact (W2_of_ne m ρ c main_v2 (by decide)).trans (e_v2 m ρ c)

theorem e_arg4_3 : W3 m ρ c (Proc.devRef .tc main_arg4) = m ((c : Thread nD τ).loc main_arg4) := by
  show StableHlo.after hostOps1 (W2 m ρ c) (Proc.devRef .tc main_arg4) = _
  after_results
  exact (W2_of_ne m ρ c main_arg4 (by decide)).trans (e_arg4_1 m ρ c)

/-! ### Region 1's output and region 2's entry contents -/

theorem e_v10 (H : RegionValues) : W4 m ρ c (Proc.devRef .tc main_v10)
    = attnK (m ((c : Thread nD τ).loc main_arg0)) (m ((c : Thread nD τ).loc main_arg1)) (m ((c : Thread nD τ).loc main_arg2)) := by
  refine (W4_arr m ρ c 3).trans ?_
  rw [H.r1 (V3 m ρ) c]
  show Cert.Mha.attn (W3 m ρ c (Proc.devRef .tc main_v7)) (W3 m ρ c (Proc.devRef .tc main_v8)) (W3 m ρ c (Proc.devRef .tc main_v9)) = _
  rw [e_v7, e_v8, e_v9, e_v6' m ρ c H]; rfl

theorem e_v12 : W5 m ρ c (Proc.devRef .tc main_v12)
    = shapeCast S8192x1024
        (transpose S8x1024x16x64 [0, 2, 1, 3] (W4 m ρ c (Proc.devRef .tc main_v10)) transposes_S8x16x1024x64_S8x1024x16x64_0_2_1_3)
        shapeCasts_S8x1024x16x64_S8192x1024 := by
  show StableHlo.after hostOps2 (W4 m ρ c) (Proc.devRef .tc main_v12) = _
  after_results
  rfl

theorem e_v13 : W5 m ρ c (Proc.devRef .tc main_v13)
    = shapeCast S1x1024 (m ((c : Thread nD τ).loc main_arg4)) shapeCasts_S1024_S1x1024 := by
  show StableHlo.after hostOps2 (W4 m ρ c) (Proc.devRef .tc main_v13) = _
  after_results
  rw [show W4 m ρ c (Proc.devRef .tc main_arg4) = m ((c : Thread nD τ).loc main_arg4) from
    (W4_of_ne m ρ c main_arg4 (by decide)).trans (e_arg4_3 m ρ c)]
  rfl

theorem e_v2_5 : W5 m ρ c (Proc.devRef .tc main_v2) = (m ((c : Thread nD τ).loc main_arg3) : S1024x1024.Idx → EReal) := by
  show StableHlo.after hostOps2 (W4 m ρ c) (Proc.devRef .tc main_v2) = _
  after_results
  exact (W4_of_ne m ρ c main_v2 (by decide)).trans (e_v2_3 m ρ c)

/-! ### Region 2's output and the result -/

theorem e_v14 (H : RegionValues) : W6 m ρ c (Proc.devRef .tc main_v14)
    = Cert.Mha.dense (M := 8192) (K := 1024) (N := 1024)
        (shapeCast S8192x1024
          (transpose S8x1024x16x64 [0, 2, 1, 3]
            (attnK (m ((c : Thread nD τ).loc main_arg0)) (m ((c : Thread nD τ).loc main_arg1)) (m ((c : Thread nD τ).loc main_arg2)))
            transposes_S8x16x1024x64_S8x1024x16x64_0_2_1_3)
          shapeCasts_S8x1024x16x64_S8192x1024)
        (m ((c : Thread nD τ).loc main_arg3) : S1024x1024.Idx → EReal)
        (shapeCast S1x1024 (m ((c : Thread nD τ).loc main_arg4)) shapeCasts_S1024_S1x1024) := by
  refine (W6_arr m ρ c 3).trans ?_
  rw [H.r2 (V5 m ρ) c]
  show Cert.Mha.dense (W5 m ρ c (Proc.devRef .tc main_v12)) (W5 m ρ c (Proc.devRef .tc main_v2)) (W5 m ρ c (Proc.devRef .tc main_v13)) = _
  rw [e_v12, e_v2_5, e_v13, e_v10 m ρ c H]

/-- The result buffer at the last boundary is `resK` of the launch contents of the five arguments. -/
theorem result_eq (H : RegionValues) : W7 m ρ c (Proc.devRef .tc main_v15)
    = resK (m ((c : Thread nD τ).loc main_arg0)) (m ((c : Thread nD τ).loc main_arg1)) (m ((c : Thread nD τ).loc main_arg2))
        (m ((c : Thread nD τ).loc main_arg3)) (m ((c : Thread nD τ).loc main_arg4)) := by
  have e : W7 m ρ c (Proc.devRef .tc main_v15)
      = shapeCast S8x1024x1024 (W6 m ρ c (Proc.devRef .tc main_v14)) shapeCasts_S8192x1024_S8x1024x1024 := by
    show StableHlo.after hostOps3 (W6 m ρ c) (Proc.devRef .tc main_v15) = _
    after_results
    rfl
  rw [e, e_v14 m ρ c H]; rfl

end Cert.KernelIdeal.Fold
end
-- ==== Proof.Dense0Pay.lean ====
/-
  A linear layer's block, entry by entry.

  The body's payload for one block of 512 rows: the block of the input (rounded to the narrower format, which on the
  extended reals changes nothing), times the whole weight by a matrix product into a zero accumulator, plus the one-row
  bias repeated over the rows, rounded again. Read at entry (p, e) this is the inner product of row p of the block with
  column e of the weight, plus entry e of the bias.
-/
import proofs.«110953_j7438883357444_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.DenseValue

open Cert.KernelIdeal Cert.KernelIdeal.Gen Idealize.ShloMosaic Idealize.ShloMosaic.TcCoe Idealize.ShloMosaic.ValueIdx

/-- The dimension numbers of the 512 × 1024 by 1024 × 3072 product: contract axis 1 of the left with axis 0 of the right. -/
abbrev D0 : DotDims S512x1024 S1024x3072 S512x3072 := dot_S512x1024_S1024x3072_S512x3072_1_0_0_1_n_n

theorem lhs0_0 (i : S512x3072.Idx) (q : D0.contr.Idx) : (D0.lhsIdx i q 0).val = (i 0).val := by
  unfold DotDims.lhsIdx
  rw [dif_neg (show ¬(0 : Fin S512x1024.rank) ∈ D0.lhsBatch by decide), dif_pos (show (0 : Fin S512x1024.rank) ∈ D0.lhsNonContracting by decide)]
  rfl
theorem lhs0_1 (i : S512x3072.Idx) (q : D0.contr.Idx) : (D0.lhsIdx i q 1).val = (q ⟨0, by decide⟩).val :=
  D0.lhsIdx_val_of_single rfl i q
theorem rhs0_0 (i : S512x3072.Idx) (q : D0.contr.Idx) : (D0.rhsIdx i q 0).val = (q ⟨0, by decide⟩).val :=
  D0.rhsIdx_val_of_single rfl i q
theorem rhs0_1 (i : S512x3072.Idx) (q : D0.contr.Idx) : (D0.rhsIdx i q 1).val = (i 1).val := by
  unfold DotDims.rhsIdx
  rw [dif_neg (show ¬(1 : Fin S1024x3072.rank) ∈ D0.rhsBatch by decide), dif_pos (show (1 : Fin S1024x3072.rank) ∈ D0.rhsNonContracting by decide)]
  rfl

/-- The matrix product into the zero accumulator, at entry (p, e): the inner product of row p with column e. -/
theorem matmul0_apply (a : FVec Ideal S512x1024 .bf16) (b : FVec Ideal S1024x3072 .bf16) (p : Fin 512) (e : Fin 3072) :
    matmul D0 none a b (constant S512x3072 .f32 0x00000000#32) (ix2 p e) = ∑ k : Fin 1024, a (ix2 p k) * b (ix2 k e) := by
  refine (Ideal.matmul_constant_zero_apply D0 none a b (ix2 p e)).trans ?_
  rw [← Equiv.sum_comp (ValueIdx.contrEquiv1 D0 1024 rfl rfl).symm]
  refine Finset.sum_congr rfl fun k _ => ?_
  have hk := ValueIdx.contrEquiv1_symm_val D0 1024 rfl rfl k
  have el : D0.lhsIdx (ix2 p e) ((ValueIdx.contrEquiv1 D0 1024 rfl rfl).symm k) = ix2 p k := funext fun a => Fin.ext (by
    match a with
    | ⟨0, _⟩ => exact lhs0_0 _ _
    | ⟨1, _⟩ => exact (lhs0_1 _ _).trans hk)
  have er : D0.rhsIdx (ix2 p e) ((ValueIdx.contrEquiv1 D0 1024 rfl rfl).symm k) = ix2 k e := funext fun a => Fin.ext (by
    match a with
    | ⟨0, _⟩ => exact (rhs0_0 _ _).trans hk
    | ⟨1, _⟩ => exact rhs0_1 _ _)
  rw [el, er]

/-- The one-row bias repeated over 512 rows, at entry (p, e): the bias at e. -/
theorem bias0_apply (x : FVec Ideal S1x3072 .f32) (p : Fin 512) (e : Fin 3072) :
    broadcastTo S512x3072 x broadcasts_S1x3072_S512x3072 (ix2 p e) = x (ix2 (0 : Fin 1) e) :=
  broadcastTo_apply x broadcasts_S1x3072_S512x3072 (ix2 p e) (ix2 (0 : Fin 1) e) (fun a => match a with
    | ⟨0, _⟩ => by show 0 = if (1 : Nat) = 1 then 0 else p.val; rw [if_pos rfl]
    | ⟨1, _⟩ => by show e.val = if (3072 : Nat) = 1 then 0 else e.val; rw [if_neg (by decide)])

/-- The payload of one block at entry (p, e). -/
theorem pay0_apply (x0 : FVec Ideal S512x1024 .f32) (x1 : FVec Ideal S1024x3072 .bf16) (x2 : FVec Ideal S1x3072 .f32)
    (p : Fin 512) (e : Fin 3072) :
    k0_pay1 (F := Ideal) x0 x1 x2 (ix2 p e) = (∑ k : Fin 1024, x0 (ix2 p k) * x1 (ix2 k e)) + x2 (ix2 (0 : Fin 1) e) := by
  unfold k0_pay1
  rw [shapeCast_self, shapeCast_self, shapeCast_self]
  show matmul D0 none (truncf .bf16 x0 bitsLt_bf16_f32) x1 (constant S512x3072 .f32 0x00000000#32) (ix2 p e)
      + broadcastTo S512x3072 x2 broadcasts_S1x3072_S512x3072 (ix2 p e) = _
  rw [matmul0_apply, bias0_apply]
  rfl

end Cert.KernelIdeal.DenseValue

end
-- ==== Proof.Dense0.lean ====
/-
  Region 0: the first linear layer, from its 16 row blocks to the whole array.

  Grid point t computes rows 512·t … 512·t + 511 of the result from the same rows of the input, the whole weight and
  the whole bias; the 16 blocks tile the 8192 × 3072 array. So after the last write-back the array is the linear layer
  of the three input arrays as the region found them, entry by entry.
-/
import proofs.«110953_j7438883357444_2_alg».proof.Proof.Gen.KernelIdeal.Frame
import proofs.«110953_j7438883357444_2_alg».proof.Proof.Spec
import proofs.«110953_j7438883357444_2_alg».proof.Proof.Dense0Pay
import Idealize.ShloMosaic.Lib.Pipeline.Value

noncomputable section

namespace Cert.KernelIdeal.DenseValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_off0 : (![0, 0] : Fin 2 → Nat) = fun _ => 0 := funext fun a => by fin_cases a <;> rfl

/-- The block indices at grid point t: the input rows and the output rows move with t, everything else stays at 0. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One block of the layer. If x0 is rows 512·T … 512·T + 511 of a0, x1 is a1 and x2 is a2, then the payload at (p, e)
    is the layer of a0, a1, a2 at (512·T + p, e). -/
theorem block0_apply (x0 : FVec Ideal S512x1024 .f32) (x1 : FVec Ideal S1024x3072 .bf16) (x2 : FVec Ideal S1x3072 .f32)
    (a0 : S8192x1024.Idx → EReal) (a1 : S1024x3072.Idx → EReal) (a2 : S1x3072.Idx → EReal) (T : Nat)
    (h0 : ∀ (p : Fin 512) (k : Fin 1024) (r : Fin 8192), r.val = T * 512 + p.val → x0 (ix2 p k) = a0 (ix2 r k))
    (h1 : ∀ (k : Fin 1024) (e : Fin 3072), x1 (ix2 k e) = a1 (ix2 k e))
    (h2 : ∀ e : Fin 3072, x2 (ix2 (0 : Fin 1) e) = a2 (ix2 (0 : Fin 1) e))
    (j : S512x3072.Idx) (i : S8192x3072.Idx) (hi0 : (i 0).val = T * 512 + (j 0).val) (hi1 : (i 1).val = (j 1).val) :
    k0_pay1 (F := Ideal) x0 x1 x2 j = Cert.Mha.dense (M := 8192) (K := 1024) (N := 3072) a0 a1 a2 i := by
  obtain ⟨p, e, rfl⟩ : ∃ (p : Fin 512) (e : Fin 3072), j = ix2 p e := ⟨j 0, j 1, eq_ix2 j⟩
  obtain ⟨r, e', rfl⟩ : ∃ (r : Fin 8192) (e' : Fin 3072), i = ix2 r e' := ⟨i 0, i 1, eq_ix2 i⟩
  have hr : r.val = T * 512 + p.val := hi0
  obtain rfl : e' = e := Fin.ext hi1
  rw [pay0_apply, Cert.Mha.dense_apply, h2]
  exact congrArg (· + a2 (ix2 (0 : Fin 1) e')) (Finset.sum_congr rfl fun k _ => by rw [h0 p k r hr, h1])

/-- What grid point t writes back is block t of the layer of the arrays as the region finds them. -/
theorem flushed0_eq (c : Dev nD) (t : Fin cfg0.N) :
    (dat0 (F := Ideal) V c).flushed 3 t = ((cfg0.win 3).blk t).view.read (Elt Ideal)
      (Cert.Mha.dense (M := 8192) (K := 1024) (N := 3072) (V c main_v0) (V c main_v1) (V c main_v3)) := by
  show (cfg0.win 3).cut (grid0.coords t) ((dat0 V c).after 3 t) = _
  rw [after0_3]
  unfold out0_3
  rw [View.canon_unit_zero zero_off0]
  simp only [View.ld_unit_zero (S := S512x1024) zero_off0, View.ld_unit_zero (S := S1024x3072) zero_off0, View.ld_unit_zero (S := S1x3072) zero_off0]
  obtain ⟨e00, e01, e10, e11, e20, e21, e30, e31⟩ := index0 t
  funext j
  refine (block0_apply (iblk0 V c 0 t) (iblk0 V c 1 t) (iblk0 V c 2 t) (V c main_v0) (V c main_v1) (V c main_v3) t.val ?_ ?_ ?_ j
    (((cfg0.win 3).blk t).view.emb j) ?_ ?_)
  · intro p k r hr
    show V c main_v0 (((cfg0.win 0).blk t).view.emb (ix2 p k)) = V c main_v0 (ix2 r k)
    refine congrArg _ (funext fun a => Fin.ext ?_)
    match a with
    | ⟨0, _⟩ => show win0_0.index t (0 : Fin 2) * 512 + 1 * p.val = r.val; omega
    | ⟨1, _⟩ => show win0_0.index t (1 : Fin 2) * 1024 + 1 * k.val = k.val; omega
  · intro k e
    show V c main_v1 (((cfg0.win 1).blk t).view.emb (ix2 k e)) = V c main_v1 (ix2 k e)
    refine congrArg _ (funext fun a => Fin.ext ?_)
    match a with
    | ⟨0, _⟩ => show win0_1.index t (0 : Fin 2) * 1024 + 1 * k.val = k.val; omega
    | ⟨1, _⟩ => show win0_1.index t (1 : Fin 2) * 3072 + 1 * e.val = e.val; omega
  · intro e
    show V c main_v3 (((cfg0.win 2).blk t).view.emb (ix2 (0 : Fin 1) e)) = V c main_v3 (ix2 (0 : Fin 1) e)
    refine congrArg _ (funext fun a => Fin.ext ?_)
    match a with
    | ⟨0, _⟩ => show win0_2.index t (0 : Fin 2) * 1 + 1 * 0 = 0; omega
    | ⟨1, _⟩ => show win0_2.index t (1 : Fin 2) * 3072 + 1 * e.val = e.val; omega
  · show win0_3.index t (0 : Fin 2) * 512 + 1 * (j 0).val = t.val * 512 + (j 0).val; omega
  · show win0_3.index t (1 : Fin 2) * 3072 + 1 * (j 1).val = (j 1).val; omega

/-- An index of the array is in point t's block iff each coordinate is in the block's range on its axis. -/
theorem mem_blk0 (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v4).slice (win0_3.rect t)).set ↔ _
  rw [View.set_slice_whole, Rect.mem_set_unit]
  exact Iff.rfl

/-- Row r of the array is in the block of grid point r / 512. -/
theorem cover0 (i : S8192x3072.Idx) : ∃ t : Fin cfg0.N, (cfg0.win 3).flush t = true ∧ i ∈ ((cfg0.win 3).blk t).view.set := by
  have hi0 : (i 0).val < 8192 := (i 0).isLt
  have hi1 : (i 1).val < 3072 := (i 1).isLt
  have hlt : (i 0).val / 512 < grid0.N := by rw [N_0]; omega
  obtain ⟨-, -, -, -, -, -, e30, e31⟩ := index0 ⟨(i 0).val / 512, hlt⟩
  refine ⟨⟨(i 0).val / 512, hlt⟩, flush0_3 _, ?_⟩
  rw [mem_blk0]
  intro a
  match a with
  | ⟨0, _⟩ =>
    show win0_3.index ⟨(i 0).val / 512, hlt⟩ (0 : Fin 2) * 512 ≤ (i 0).val ∧ (i 0).val < win0_3.index ⟨(i 0).val / 512, hlt⟩ (0 : Fin 2) * 512 + 512
    rw [e30]; show (i 0).val / 512 * 512 ≤ (i 0).val ∧ (i 0).val < (i 0).val / 512 * 512 + 512; omega
  | ⟨1, _⟩ =>
    show win0_3.index ⟨(i 0).val / 512, hlt⟩ (1 : Fin 2) * 3072 ≤ (i 1).val ∧ (i 1).val < win0_3.index ⟨(i 0).val / 512, hlt⟩ (1 : Fin 2) * 3072 + 3072
    omega

/-- The first linear layer's array after the region: the layer of the input, the weight and the bias as the region found them. -/
theorem final0 (c : Dev nD) :
    (dat0 (F := Ideal) V c).arrAt 3 cfg0.N = Cert.Mha.dense (M := 8192) (K := 1024) (N := 3072) (V c main_v0) (V c main_v1) (V c main_v3) :=
  (dat0 (F := Ideal) V c).arrAt_eq_of_cover 3 _ (fun t _ => flushed0_eq V c t) cover0

end Cert.KernelIdeal.DenseValue

end
-- ==== Proof.AttnBody.lean ====
/-
  Softmax attention on one block: one batch entry and two heads, queries, keys and values of 1024 positions by 64
  features each. The block's result at (head h, query position s, feature d) is the sum over key positions t of the
  softmax weight of t for s — the exponential of the scaled score shifted by its row's maximum, over the row's sum of
  those exponentials — times the value at (h, t, d). This module reads the kernel body's arithmetic at an index and
  finds that formula, one operation at a time: the two contractions as finite sums, the two row reductions as a fold
  of max and a sum, the casts and broadcasts as re-indexings.
-/
import proofs.«110953_j7438883357444_2_alg».proof.Proof.Gen.KernelIdeal.Skeleton
import proofs.«110953_j7438883357444_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnValue

open Cert.KernelIdeal Cert.KernelIdeal.Gen Idealize.ShloMosaic Idealize.ShloMosaic.TcCoe Idealize.ShloMosaic.ValueIdx

/-! ## The block's own formula -/

/-- A block of queries, keys, values or results: one batch entry, two heads. -/
abbrev Blk : Type := (⟨4, ![1, 2, 1024, 64]⟩ : Shape).Idx → EReal

/-- The scaled score of query position `s` against key position `t` in head `h` of the block. -/
def scoreB (q k : Blk) (h : Fin 2) (s t : Fin 1024) : EReal :=
  (∑ d : Fin 64, q (ix4 (0 : Fin 1) h s d) * k (ix4 (0 : Fin 1) h t d)) * Ideal.ofBits .f32 0x3E000000#32

/-- The exponential of a score shifted by its row's maximum. -/
def expoB (q k : Blk) (h : Fin 2) (s t : Fin 1024) : EReal :=
  Ideal.exp (scoreB q k h s t - Cert.Mha.rowMax (scoreB q k h s))

/-- The softmax weight of key position `t` for query position `s`. -/
def probB (q k : Blk) (h : Fin 2) (s t : Fin 1024) : EReal :=
  Ideal.div (expoB q k h s t) (∑ t' : Fin 1024, expoB q k h s t')

/-- The block's attention output at head `h`, query position `s`, feature `d`. -/
def attnB (q k v : Blk) (h : Fin 2) (s : Fin 1024) (d : Fin 64) : EReal :=
  ∑ t : Fin 1024, probB q k h s t * v (ix4 (0 : Fin 1) h t d)

/-! ## The contraction over the 64 features: scores -/

section Scores

theorem lhs1_0 (j : S2x1024x1024.Idx) (q : dot_S2x1024x64_S2x1024x64_S2x1024x1024_2_2_1_1_0_0.contr.Idx) :
    (dot_S2x1024x64_S2x1024x64_S2x1024x1024_2_2_1_1_0_0.lhsIdx j q 0).val = (j 0).val := by
  unfold DotDims.lhsIdx
  rw [dif_pos (show (0 : Fin S2x1024x64.rank) ∈ dot_S2x1024x64_S2x1024x64_S2x1024x1024_2_2_1_1_0_0.lhsBatch by decide)]
  rfl
theorem lhs1_1 (j : S2x1024x1024.Idx) (q : dot_S2x1024x64_S2x1024x64_S2x1024x1024_2_2_1_1_0_0.contr.Idx) :
    (dot_S2x1024x64_S2x1024x64_S2x1024x1024_2_2_1_1_0_0.lhsIdx j q 1).val = (j 1).val := by
  unfold DotDims.lhsIdx
  rw [dif_neg (show ¬(1 : Fin S2x1024x64.rank) ∈ dot_S2x1024x64_S2x1024x64_S2x1024x1024_2_2_1_1_0_0.lhsBatch by decide), dif_pos (show (1 : Fin S2x1024x64.rank) ∈ dot_S2x1024x64_S2x1024x64_S2x1024x1024_2_2_1_1_0_0.lhsNonContracting by decide)]
  rfl
theorem lhs1_2 (j : S2x1024x1024.Idx) (q : dot_S2x1024x64_S2x1024x64_S2x1024x1024_2_2_1_1_0_0.contr.Idx) :
    (dot_S2x1024x64_S2x1024x64_S2x1024x1024_2_2_1_1_0_0.lhsIdx j q 2).val = (q ⟨0, by decide⟩).val :=
  dot_S2x1024x64_S2x1024x64_S2x1024x1024_2_2_1_1_0_0.lhsIdx_val_of_single rfl j q
theorem rhs1_0 (j : S2x1024x1024.Idx) (q : dot_S2x1024x64_S2x1024x64_S2x1024x1024_2_2_1_1_0_0.contr.Idx) :
    (dot_S2x1024x64_S2x1024x64_S2x1024x1024_2_2_1_1_0_0.rhsIdx j q 0).val = (j 0).val := by
  unfold DotDims.rhsIdx
  rw [dif_pos (show (0 : Fin S2x1024x64.rank) ∈ dot_S2x1024x64_S2x1024x64_S2x1024x1024_2_2_1_1_0_0.rhsBatch by decide)]
  rfl
theorem rhs1_1 (j : S2x1024x1024.Idx) (q : dot_S2x1024x64_S2x1024x64_S2x1024x1024_2_2_1_1_0_0.contr.Idx) :
    (dot_S2x1024x64_S2x1024x64_S2x1024x1024_2_2_1_1_0_0.rhsIdx j q 1).val = (j 2).val := by
  unfold DotDims.rhsIdx
  rw [dif_neg (show ¬(1 : Fin S2x1024x64.rank) ∈ dot_S2x1024x64_S2x1024x64_S2x1024x1024_2_2_1_1_0_0.rhsBatch by decide), dif_pos (show (1 : Fin S2x1024x64.rank) ∈ dot_S2x1024x64_S2x1024x64_S2x1024x1024_2_2_1_1_0_0.rhsNonContracting by decide)]
  rfl
theorem rhs1_2 (j : S2x1024x1024.Idx) (q : dot_S2x1024x64_S2x1024x64_S2x1024x1024_2_2_1_1_0_0.contr.Idx) :
    (dot_S2x1024x64_S2x1024x64_S2x1024x1024_2_2_1_1_0_0.rhsIdx j q 2).val = (q ⟨0, by decide⟩).val :=
  dot_S2x1024x64_S2x1024x64_S2x1024x1024_2_2_1_1_0_0.rhsIdx_val_of_single rfl j q

/-- The first contraction at (h, s, t): the inner product over the 64 features of query row s and key row t of head h. -/
theorem mm1_apply (q k : FVec Ideal S2x1024x64 .bf16) (h : Fin 2) (s t : Fin 1024) :
    matmul dot_S2x1024x64_S2x1024x64_S2x1024x1024_2_2_1_1_0_0 none q k (constant S2x1024x1024 .f32 0x00000000#32) (ix3 h s t)
      = ∑ d : Fin 64, q (ix3 h s d) * k (ix3 h t d) := by
  simp only [matmul]
  rw [Ideal.matmul_constant_zero_apply, ← Equiv.sum_comp (ValueIdx.contrEquiv1 dot_S2x1024x64_S2x1024x64_S2x1024x1024_2_2_1_1_0_0 64 rfl rfl).symm]
  refine Finset.sum_congr rfl fun d _ => ?_
  have hk := ValueIdx.contrEquiv1_symm_val dot_S2x1024x64_S2x1024x64_S2x1024x1024_2_2_1_1_0_0 64 rfl rfl d
  have el : dot_S2x1024x64_S2x1024x64_S2x1024x1024_2_2_1_1_0_0.lhsIdx (ix3 h s t) ((ValueIdx.contrEquiv1 dot_S2x1024x64_S2x1024x64_S2x1024x1024_2_2_1_1_0_0 64 rfl rfl).symm d) = ix3 h s d := funext fun a => Fin.ext (by
    match a with
    | ⟨0, _⟩ => exact lhs1_0 _ _
    | ⟨1, _⟩ => exact lhs1_1 _ _
    | ⟨2, _⟩ => exact (lhs1_2 _ _).trans hk)
  have er : dot_S2x1024x64_S2x1024x64_S2x1024x1024_2_2_1_1_0_0.rhsIdx (ix3 h s t) ((ValueIdx.contrEquiv1 dot_S2x1024x64_S2x1024x64_S2x1024x1024_2_2_1_1_0_0 64 rfl rfl).symm d) = ix3 h t d := funext fun a => Fin.ext (by
    match a with
    | ⟨0, _⟩ => exact rhs1_0 _ _
    | ⟨1, _⟩ => exact rhs1_1 _ _
    | ⟨2, _⟩ => exact (rhs1_2 _ _).trans hk)
  rw [el, er]

end Scores

/-! ## The contraction over the 1024 key positions: the weighted sum of values -/

section Mix

theorem lhs2_0 (j : S2x1024x64.Idx) (q : dot_S2x1024x1024_S2x1024x64_S2x1024x64_2_1_1_2_0_0.contr.Idx) :
    (dot_S2x1024x1024_S2x1024x64_S2x1024x64_2_1_1_2_0_0.lhsIdx j q 0).val = (j 0).val := by
  unfold DotDims.lhsIdx
  rw [dif_pos (show (0 : Fin S2x1024x1024.rank) ∈ dot_S2x1024x1024_S2x1024x64_S2x1024x64_2_1_1_2_0_0.lhsBatch by decide)]
  rfl
theorem lhs2_1 (j : S2x1024x64.Idx) (q : dot_S2x1024x1024_S2x1024x64_S2x1024x64_2_1_1_2_0_0.contr.Idx) :
    (dot_S2x1024x1024_S2x1024x64_S2x1024x64_2_1_1_2_0_0.lhsIdx j q 1).val = (j 1).val := by
  unfold DotDims.lhsIdx
  rw [dif_neg (show ¬(1 : Fin S2x1024x1024.rank) ∈ dot_S2x1024x1024_S2x1024x64_S2x1024x64_2_1_1_2_0_0.lhsBatch by decide), dif_pos (show (1 : Fin S2x1024x1024.rank) ∈ dot_S2x1024x1024_S2x1024x64_S2x1024x64_2_1_1_2_0_0.lhsNonContracting by decide)]
  rfl
theorem lhs2_2 (j : S2x1024x64.Idx) (q : dot_S2x1024x1024_S2x1024x64_S2x1024x64_2_1_1_2_0_0.contr.Idx) :
    (dot_S2x1024x1024_S2x1024x64_S2x1024x64_2_1_1_2_0_0.lhsIdx j q 2).val = (q ⟨0, by decide⟩).val :=
  dot_S2x1024x1024_S2x1024x64_S2x1024x64_2_1_1_2_0_0.lhsIdx_val_of_single rfl j q
theorem rhs2_0 (j : S2x1024x64.Idx) (q : dot_S2x1024x1024_S2x1024x64_S2x1024x64_2_1_1_2_0_0.contr.Idx) :
    (dot_S2x1024x1024_S2x1024x64_S2x1024x64_2_1_1_2_0_0.rhsIdx j q 0).val = (j 0).val := by
  unfold DotDims.rhsIdx
  rw [dif_pos (show (0 : Fin S2x1024x64.rank) ∈ dot_S2x1024x1024_S2x1024x64_S2x1024x64_2_1_1_2_0_0.rhsBatch by decide)]
  rfl
theorem rhs2_1 (j : S2x1024x64.Idx) (q : dot_S2x1024x1024_S2x1024x64_S2x1024x64_2_1_1_2_0_0.contr.Idx) :
    (dot_S2x1024x1024_S2x1024x64_S2x1024x64_2_1_1_2_0_0.rhsIdx j q 1).val = (q ⟨0, by decide⟩).val :=
  dot_S2x1024x1024_S2x1024x64_S2x1024x64_2_1_1_2_0_0.rhsIdx_val_of_single rfl j q
theorem rhs2_2 (j : S2x1024x64.Idx) (q : dot_S2x1024x1024_S2x1024x64_S2x1024x64_2_1_1_2_0_0.contr.Idx) :
    (dot_S2x1024x1024_S2x1024x64_S2x1024x64_2_1_1_2_0_0.rhsIdx j q 2).val = (j 2).val := by
  unfold DotDims.rhsIdx
  rw [dif_neg (show ¬(2 : Fin S2x1024x64.rank) ∈ dot_S2x1024x1024_S2x1024x64_S2x1024x64_2_1_1_2_0_0.rhsBatch by decide), dif_pos (show (2 : Fin S2x1024x64.rank) ∈ dot_S2x1024x1024_S2x1024x64_S2x1024x64_2_1_1_2_0_0.rhsNonContracting by decide)]
  rfl

/-- The second contraction at (h, s, d): the sum over key positions t of the weight at (h, s, t) times the value at (h, t, d). -/
theorem mm2_apply (p : FVec Ideal S2x1024x1024 .bf16) (v : FVec Ideal S2x1024x64 .bf16) (h : Fin 2) (s : Fin 1024) (d : Fin 64) :
    matmul dot_S2x1024x1024_S2x1024x64_S2x1024x64_2_1_1_2_0_0 none p v (constant S2x1024x64 .f32 0x00000000#32) (ix3 h s d)
      = ∑ t : Fin 1024, p (ix3 h s t) * v (ix3 h t d) := by
  simp only [matmul]
  rw [Ideal.matmul_constant_zero_apply, ← Equiv.sum_comp (ValueIdx.contrEquiv1 dot_S2x1024x1024_S2x1024x64_S2x1024x64_2_1_1_2_0_0 1024 rfl rfl).symm]
  refine Finset.sum_congr rfl fun t _ => ?_
  have hk := ValueIdx.contrEquiv1_symm_val dot_S2x1024x1024_S2x1024x64_S2x1024x64_2_1_1_2_0_0 1024 rfl rfl t
  have el : dot_S2x1024x1024_S2x1024x64_S2x1024x64_2_1_1_2_0_0.lhsIdx (ix3 h s d) ((ValueIdx.contrEquiv1 dot_S2x1024x1024_S2x1024x64_S2x1024x64_2_1_1_2_0_0 1024 rfl rfl).symm t) = ix3 h s t := funext fun a => Fin.ext (by
    match a with
    | ⟨0, _⟩ => exact lhs2_0 _ _
    | ⟨1, _⟩ => exact lhs2_1 _ _
    | ⟨2, _⟩ => exact (lhs2_2 _ _).trans hk)
  have er : dot_S2x1024x1024_S2x1024x64_S2x1024x64_2_1_1_2_0_0.rhsIdx (ix3 h s d) ((ValueIdx.contrEquiv1 dot_S2x1024x1024_S2x1024x64_S2x1024x64_2_1_1_2_0_0 1024 rfl rfl).symm t) = ix3 h t d := funext fun a => Fin.ext (by
    match a with
    | ⟨0, _⟩ => exact rhs2_0 _ _
    | ⟨1, _⟩ => exact (rhs2_1 _ _).trans hk
    | ⟨2, _⟩ => exact rhs2_2 _ _)
  rw [el, er]

end Mix

/-! ## The two row reductions, and a row's value spread back over the row -/

/-- Over a row index (h, s), the source index with coordinate t inserted on the reduced axis is (h, s, t). -/
theorem lift_row (h : Fin 2) (s t : Fin 1024) :
    Facts₀.reduces_S2x1024x1024_S2x1024.lift (ix2 h s) t = ix3 h s t :=
  funext fun c => Fin.ext (by match c with | ⟨0, _⟩ => rfl | ⟨1, _⟩ => rfl | ⟨2, _⟩ => rfl)

/-- The row maximum at (h, s): the fold of max from minus infinity over the row's 1024 entries. -/
theorem rowmax_apply (x : FVec Ideal S2x1024x1024 .f32) (h : Fin 2) (s : Fin 1024) :
    multiReduction .maximumf [2] S2x1024 x 0xFF800000#32 Facts₀.reduces_S2x1024x1024_S2x1024 (.inl rfl) rfl (ix2 h s)
      = Cert.Mha.rowMax fun t => x (ix3 h s t) := by
  refine (Ideal.multiReduction_maximumf_single x _ Facts₀.reduces_S2x1024x1024_S2x1024 (.inl rfl) rfl (ix2 h s)).trans ?_
  have e : (fun t : Fin 1024 => x (Facts₀.reduces_S2x1024x1024_S2x1024.lift (ix2 h s) t)) = fun t => x (ix3 h s t) :=
    funext fun t => congrArg x (lift_row h s t)
  exact congrArg (fun f : Fin 1024 → EReal => (Finset.univ : Finset (Fin 1024)).fold max (Ideal.ofBits .f32 0xFF800000#32) f) e

/-- The row sum at (h, s): the sum of the row's 1024 entries. -/
theorem rowsum_apply (x : FVec Ideal S2x1024x1024 .f32) (h : Fin 2) (s : Fin 1024) :
    multiReduction .add [2] S2x1024 x 0x00000000#32 Facts₀.reduces_S2x1024x1024_S2x1024 (.inl rfl) rfl (ix2 h s)
      = ∑ t : Fin 1024, x (ix3 h s t) := by
  refine (Ideal.multiReduction_add_single x _ Facts₀.reduces_S2x1024x1024_S2x1024 (.inl rfl) rfl (ix2 h s)).trans ?_
  show ∑ t : Fin 1024, x (Facts₀.reduces_S2x1024x1024_S2x1024.lift (ix2 h s) t) = _
  simp only [lift_row]

/-- A per-row value given a trailing unit axis and broadcast along it reads, at (h, s, t), the row's value. -/
theorem spread_apply {α : Type} (r : S2x1024.Idx → α) (h : Fin 2) (s t : Fin 1024) :
    broadcastTo S2x1024x1024 (shapeCast S2x1024x1 r Facts₀.shapeCasts_S2x1024_S2x1024x1) Facts₀.broadcasts_S2x1024x1_S2x1024x1024 (ix3 h s t)
      = r (ix2 h s) := by
  refine (broadcastTo_apply _ Facts₀.broadcasts_S2x1024x1_S2x1024x1024 (ix3 h s t) (ix3 h s (0 : Fin 1)) fun a => ?_).trans ?_
  · match a with
    | ⟨0, _⟩ => rfl
    | ⟨1, _⟩ => rfl
    | ⟨2, _⟩ => rfl
  · refine shapeCast_apply r Facts₀.shapeCasts_S2x1024_S2x1024x1 (ix3 h s (0 : Fin 1)) (ix2 h s) ?_
    rw [Shape.rowMajor_val_two, Shape.rowMajor_val_three]
    show h.val * 1024 + s.val = (h.val * 1024 + s.val) * 1 + 0
    omega

/-! ## The body's arithmetic, stage by stage -/

/-- The scaled scores of the block, as the body computes them. -/
def scoresV (q k : FVec Ideal S1x2x1024x64 .bf16) : FVec Ideal S2x1024x1024 .f32 :=
  mulf (matmul dot_S2x1024x64_S2x1024x64_S2x1024x1024_2_2_1_1_0_0 none
      (shapeCast S2x1024x64 q Facts₀.shapeCasts_S1x2x1024x64_S2x1024x64) (shapeCast S2x1024x64 k Facts₀.shapeCasts_S1x2x1024x64_S2x1024x64)
      (constant S2x1024x1024 .f32 0x00000000#32))
    (broadcast S2x1024x1024 (Scalar.ofBits .f32 0x3E000000#32))

theorem scoresV_apply (q k : FVec Ideal S1x2x1024x64 .bf16) (h : Fin 2) (s t : Fin 1024) :
    scoresV q k (ix3 h s t) = scoreB q k h s t := by
  unfold scoresV scoreB
  rw [mulf_apply, mm1_apply]
  refine congrArg₂ (· * ·) (Finset.sum_congr rfl fun d _ => ?_) rfl
  rw [shapeCast_1abc_abc_apply, shapeCast_1abc_abc_apply]

/-- The shifted exponentials of the block, as the body computes them. -/
def expV (q k : FVec Ideal S1x2x1024x64 .bf16) : FVec Ideal S2x1024x1024 .f32 :=
  exp (subf (scoresV q k)
    (broadcastTo S2x1024x1024 (shapeCast S2x1024x1
      (multiReduction .maximumf [2] S2x1024 (scoresV q k) 0xFF800000#32 Facts₀.reduces_S2x1024x1024_S2x1024 (.inl rfl) rfl)
      Facts₀.shapeCasts_S2x1024_S2x1024x1) Facts₀.broadcasts_S2x1024x1_S2x1024x1024))

theorem expV_apply (q k : FVec Ideal S1x2x1024x64 .bf16) (h : Fin 2) (s t : Fin 1024) :
    expV q k (ix3 h s t) = expoB q k h s t := by
  unfold expV expoB
  show Ideal.exp (scoresV q k (ix3 h s t) - broadcastTo S2x1024x1024 (shapeCast S2x1024x1
      (multiReduction .maximumf [2] S2x1024 (scoresV q k) 0xFF800000#32 Facts₀.reduces_S2x1024x1024_S2x1024 (.inl rfl) rfl)
      Facts₀.shapeCasts_S2x1024_S2x1024x1) Facts₀.broadcasts_S2x1024x1_S2x1024x1024 (ix3 h s t)) = _
  rw [spread_apply, rowmax_apply, scoresV_apply]
  refine congrArg (fun f => Ideal.exp (scoreB q k h s t - Cert.Mha.rowMax f)) (funext fun t' => scoresV_apply q k h s t')

/-- The softmax weights of the block, as the body computes them. -/
def probV (q k : FVec Ideal S1x2x1024x64 .bf16) : FVec Ideal S2x1024x1024 .f32 :=
  divf (expV q k)
    (broadcastTo S2x1024x1024 (shapeCast S2x1024x1
      (multiReduction .add [2] S2x1024 (expV q k) 0x00000000#32 Facts₀.reduces_S2x1024x1024_S2x1024 (.inl rfl) rfl)
      Facts₀.shapeCasts_S2x1024_S2x1024x1) Facts₀.broadcasts_S2x1024x1_S2x1024x1024)

theorem probV_apply (q k : FVec Ideal S1x2x1024x64 .bf16) (h : Fin 2) (s t : Fin 1024) :
    probV q k (ix3 h s t) = probB q k h s t := by
  unfold probV probB
  rw [divf_apply, spread_apply, rowsum_apply, expV_apply]
  exact congrArg (Ideal.div (expoB q k h s t)) (Finset.sum_congr rfl fun t' _ => expV_apply q k h s t')

/-- The body's payload is these stages composed: the weights rounded (the identity on the extended reals), contracted
    with the values, rounded, and given back the leading unit axis. -/
theorem pay_eq (x0 x1 x2 : FVec Ideal S1x2x1024x64 .bf16) :
    k1_pay1 (F := Ideal) x0 x1 x2
      = shapeCast S1x2x1024x64 (truncf .bf16 (matmul dot_S2x1024x1024_S2x1024x64_S2x1024x64_2_1_1_2_0_0 none
          (truncf .bf16 (probV x0 x1) Facts₀.bitsLt_bf16_f32) (shapeCast S2x1024x64 x2 Facts₀.shapeCasts_S1x2x1024x64_S2x1024x64)
          (constant S2x1024x64 .f32 0x00000000#32)) Facts₀.bitsLt_bf16_f32) Facts₀.shapeCasts_S2x1024x64_S1x2x1024x64 := rfl

/-- THE PAYLOAD AT AN INDEX: what the body stores at (0, h, s, d) is the block's attention output there. -/
theorem pay_apply (x0 x1 x2 : FVec Ideal S1x2x1024x64 .bf16) (h : Fin 2) (s : Fin 1024) (d : Fin 64) :
    k1_pay1 (F := Ideal) x0 x1 x2 (ix4 (0 : Fin 1) h s d) = attnB x0 x1 x2 h s d := by
  rw [pay_eq, shapeCast_abc_1abc_apply, truncf_apply, mm2_apply]
  unfold attnB
  refine Finset.sum_congr rfl fun t _ => ?_
  rw [truncf_apply, probV_apply, shapeCast_1abc_abc_apply]

/-- The same at any index of the block: its leading coordinate is 0. -/
theorem pay_at (x0 x1 x2 : FVec Ideal S1x2x1024x64 .bf16) (j : S1x2x1024x64.Idx) :
    k1_pay1 (F := Ideal) x0 x1 x2 j
      = attnB x0 x1 x2 (⟨(j 1).val, (j 1).isLt⟩ : Fin 2) (⟨(j 2).val, (j 2).isLt⟩ : Fin 1024) (⟨(j 3).val, (j 3).isLt⟩ : Fin 64) := by
  obtain ⟨u, h, s, d, rfl⟩ : ∃ (u : Fin 1) (h : Fin 2) (s : Fin 1024) (d : Fin 64), j = ix4 u h s d :=
    ⟨j 0, j 1, j 2, j 3, eq_ix4 j⟩
  have hu : u = (0 : Fin 1) := Fin.ext (by have := u.isLt; omega)
  subst hu
  exact pay_apply x0 x1 x2 h s d

end Cert.KernelIdeal.AttnValue

end
-- ==== Proof.AttnBlock.lean ====
/-
  From blocks to the whole array. The attention region visits the 8 × 8 grid of (batch entry, pair of heads); at the
  point with block index (b, g) every window stages the [1, 2, 1024, 64] block at rows (b, 2g .. 2g+1, all, all) of
  its array, and the body stores the block's attention output. A block holds whole rows of positions and features,
  so the sums over key positions and over features that the specification takes for head (b, 2g + h) stay inside the
  block: the block's own formula at (h, s, d) is the specification at (b, 2g + h, s, d). The 64 blocks tile the
  array, so the array ends holding the specification's function.
-/
import proofs.«110953_j7438883357444_2_alg».proof.Proof.Gen.KernelIdeal.Frame
import proofs.«110953_j7438883357444_2_alg».proof.Proof.AttnBody
import Idealize.ShloMosaic.Lib.Pipeline.Value

set_option maxRecDepth 16384

noncomputable section

namespace Cert.KernelIdeal.AttnValue

open Cert.KernelIdeal Cert.KernelIdeal.Gen Idealize.ShloMosaic Idealize.ShloMosaic.TcCoe Idealize.ShloMosaic.ValueIdx
open Idealize.ShloMosaic.Pipeline (Dat)

/-! ## A block's formula is the specification's, at the block's place in the array -/

/-- Head `h` of the pair of heads `g`. -/
abbrev headOf (g : Fin 8) (h : Fin 2) : Fin 16 := ⟨g.val * 2 + h.val, by have := g.isLt; have := h.isLt; omega⟩

/-- If the three blocks are rows (b, 2g + h) of three arrays, the block's attention output at (h, s, d) is the
    arrays' attention output at (b, 2g + h, s, d). -/
theorem attnB_eq_attn (Q K W : Cert.Mha.Heads) (q k v : Blk) (b g : Fin 8)
    (hq : ∀ (h : Fin 2) (s : Fin 1024) (d : Fin 64), q (ix4 (0 : Fin 1) h s d) = Q (ix4 b (headOf g h) s d))
    (hk : ∀ (h : Fin 2) (s : Fin 1024) (d : Fin 64), k (ix4 (0 : Fin 1) h s d) = K (ix4 b (headOf g h) s d))
    (hv : ∀ (h : Fin 2) (s : Fin 1024) (d : Fin 64), v (ix4 (0 : Fin 1) h s d) = W (ix4 b (headOf g h) s d))
    (h : Fin 2) (s : Fin 1024) (d : Fin 64) :
    attnB q k v h s d = Cert.Mha.attn Q K W (ix4 b (headOf g h) s d) := by
  have hscore : ∀ s' t' : Fin 1024, scoreB q k h s' t' = Cert.Mha.score Q K b (headOf g h) s' t' := fun s' t' => by
    unfold scoreB Cert.Mha.score
    exact congrArg (· * Ideal.ofBits .f32 0x3E000000#32) (Finset.sum_congr rfl fun d' _ => by rw [hq, hk])
  have hexpo : ∀ s' t' : Fin 1024, expoB q k h s' t' = Cert.Mha.expo Q K b (headOf g h) s' t' := fun s' t' => by
    unfold expoB Cert.Mha.expo
    rw [hscore, show scoreB q k h s' = Cert.Mha.score Q K b (headOf g h) s' from funext (hscore s')]
  have hprob : ∀ s' t' : Fin 1024, probB q k h s' t' = Cert.Mha.prob Q K b (headOf g h) s' t' := fun s' t' => by
    unfold probB Cert.Mha.prob
    rw [hexpo, show expoB q k h s' = Cert.Mha.expo Q K b (headOf g h) s' from funext (hexpo s')]
  rw [Cert.Mha.attn_apply]
  unfold attnB
  exact Finset.sum_congr rfl fun t _ => by rw [hprob, hv]

/-! ## The index maps, decided over the grid -/

section Region
variable (V : (c : Dev nD) → (b : Ref sig .tc) → Buf (Elt Ideal) ((c : Thread nD τ).loc b))

theorem hz : (![0, 0, 0, 0] : Fin 4 → Nat) = fun _ => 0 := funext fun a => by fin_cases a <;> rfl

/-- All four windows have the same block index at every point: (b, g, 0, 0) with b, g below 8. -/
theorem idx_facts : ∀ t : Fin cfg1.N,
    win1_0.index t (0 : Fin 4) = win1_3.index t (0 : Fin 4) ∧ win1_0.index t (1 : Fin 4) = win1_3.index t (1 : Fin 4)
    ∧ win1_0.index t (2 : Fin 4) = 0 ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (0 : Fin 4) < 8 ∧ win1_3.index t (1 : Fin 4) < 8
    ∧ win1_3.index t (2 : Fin 4) = 0 ∧ win1_3.index t (3 : Fin 4) = 0 :=
  (by decide +kernel : ∀ t : Fin grid1.N, _)

/-- Every block index (b, g, 0, 0) is some point's. -/
theorem idx_onto : ∀ (q0 q1 : Fin 8), ∃ t : Fin cfg1.N, win1_3.index t = ![q0.val, q1.val, 0, 0] :=
  (by decide +kernel : ∀ (q0 q1 : Fin 8), ∃ t : Fin grid1.N, win1_3.index t = ![q0.val, q1.val, 0, 0])

/-! ## The input blocks, read where the output's block says -/

/-- Window 0's block at point `t` is rows (b, 2g + h) of its array, where (b, g, 0, 0) is the block index there. -/
theorem iblk_at0 (c : Dev nD) (t : Fin cfg1.N) (b g : Fin 8) (hb : win1_3.index t (0 : Fin 4) = b.val) (hg : win1_3.index t (1 : Fin 4) = g.val)
    (h : Fin 2) (s : Fin 1024) (d : Fin 64) :
    iblk1 (F := Ideal) V c 0 t (ix4 (0 : Fin 1) h s d) = V c main_v7 (ix4 b (headOf g h) s d) := by
  obtain ⟨e00, e01, e02, e03, e10, e11, e12, e13, e20, e21, e22, e23, -, -, -, -⟩ := idx_facts t
  show V c main_v7 (((cfg1.win 0).blk t).view.emb (ix4 (0 : Fin 1) h s d)) = V c main_v7 (ix4 b (headOf g h) s d)
  refine congrArg (V c main_v7) (funext fun a => Fin.ext ?_)
  match a with
  | ⟨0, _⟩ => show win1_0.index t (0 : Fin 4) * 1 + 1 * 0 = b.val; omega
  | ⟨1, _⟩ => show win1_0.index t (1 : Fin 4) * 2 + 1 * h.val = g.val * 2 + h.val; omega
  | ⟨2, _⟩ => show win1_0.index t (2 : Fin 4) * 1024 + 1 * s.val = s.val; omega
  | ⟨3, _⟩ => show win1_0.index t (3 : Fin 4) * 64 + 1 * d.val = d.val; omega

/-- Window 1's block at point `t` is rows (b, 2g + h) of its array, where (b, g, 0, 0) is the block index there. -/
theorem iblk_at1 (c : Dev nD) (t : Fin cfg1.N) (b g : Fin 8) (hb : win1_3.index t (0 : Fin 4) = b.val) (hg : win1_3.index t (1 : Fin 4) = g.val)
    (h : Fin 2) (s : Fin 1024) (d : Fin 64) :
    iblk1 (F := Ideal) V c 1 t (ix4 (0 : Fin 1) h s d) = V c main_v8 (ix4 b (headOf g h) s d) := by
  obtain ⟨e00, e01, e02, e03, e10, e11, e12, e13, e20, e21, e22, e23, -, -, -, -⟩ := idx_facts t
  show V c main_v8 (((cfg1.win 1).blk t).view.emb (ix4 (0 : Fin 1) h s d)) = V c main_v8 (ix4 b (headOf g h) s d)
  refine congrArg (V c main_v8) (funext fun a => Fin.ext ?_)
  match a with
  | ⟨0, _⟩ => show win1_1.index t (0 : Fin 4) * 1 + 1 * 0 = b.val; omega
  | ⟨1, _⟩ => show win1_1.index t (1 : Fin 4) * 2 + 1 * h.val = g.val * 2 + h.val; omega
  | ⟨2, _⟩ => show win1_1.index t (2 : Fin 4) * 1024 + 1 * s.val = s.val; omega
  | ⟨3, _⟩ => show win1_1.index t (3 : Fin 4) * 64 + 1 * d.val = d.val; omega

/-- Window 2's block at point `t` is rows (b, 2g + h) of its array, where (b, g, 0, 0) is the block index there. -/
theorem iblk_at2 (c : Dev nD) (t : Fin cfg1.N) (b g : Fin 8) (hb : win1_3.index t (0 : Fin 4) = b.val) (hg : win1_3.index t (1 : Fin 4) = g.val)
    (h : Fin 2) (s : Fin 1024) (d : Fin 64) :
    iblk1 (F := Ideal) V c 2 t (ix4 (0 : Fin 1) h s d) = V c main_v9 (ix4 b (headOf g h) s d) := by
  obtain ⟨e00, e01, e02, e03, e10, e11, e12, e13, e20, e21, e22, e23, -, -, -, -⟩ := idx_facts t
  show V c main_v9 (((cfg1.win 2).blk t).view.emb (ix4 (0 : Fin 1) h s d)) = V c main_v9 (ix4 b (headOf g h) s d)
  refine congrArg (V c main_v9) (funext fun a => Fin.ext ?_)
  match a with
  | ⟨0, _⟩ => show win1_2.index t (0 : Fin 4) * 1 + 1 * 0 = b.val; omega
  | ⟨1, _⟩ => show win1_2.index t (1 : Fin 4) * 2 + 1 * h.val = g.val * 2 + h.val; omega
  | ⟨2, _⟩ => show win1_2.index t (2 : Fin 4) * 1024 + 1 * s.val = s.val; omega
  | ⟨3, _⟩ => show win1_2.index t (3 : Fin 4) * 64 + 1 * d.val = d.val; omega

/-! ## What a point writes back -/

/-- WHAT POINT `t` WRITES BACK is block `t` of the attention output of the three arrays as the region finds them. -/
theorem flushed_eq (c : Dev nD) (t : Fin cfg1.N) :
    (dat1 (F := Ideal) V c).flushed 3 t
      = ((cfg1.win 3).blk t).view.read (Elt Ideal) (Cert.Mha.attn (V c main_v7) (V c main_v8) (V c main_v9)) := by
  show (cfg1.win 3).cut (grid1.coords t) ((dat1 V c).after 3 t) = _
  rw [after1_3]
  unfold out1_3
  rw [View.canon_unit_zero hz]
  simp only [View.ld_unit_zero (S := S1x2x1024x64) hz]
  obtain ⟨-, -, -, -, -, -, -, -, -, -, -, -, hb, hg, e2, e3⟩ := idx_facts t
  funext j
  show k1_pay1 (F := Ideal) (iblk1 V c 0 t) (iblk1 V c 1 t) (iblk1 V c 2 t) j
    = Cert.Mha.attn (V c main_v7) (V c main_v8) (V c main_v9) (((cfg1.win 3).blk t).view.emb j)
  have hj0 : (j 0).val < 1 := (j 0).isLt
  have hj1 : (j 1).val < 2 := (j 1).isLt
  have hj2 : (j 2).val < 1024 := (j 2).isLt
  have hj3 : (j 3).val < 64 := (j 3).isLt
  refine (pay_at (iblk1 V c 0 t) (iblk1 V c 1 t) (iblk1 V c 2 t) j).trans ?_
  refine (attnB_eq_attn (V c main_v7) (V c main_v8) (V c main_v9) (iblk1 V c 0 t) (iblk1 V c 1 t) (iblk1 V c 2 t)
    ⟨win1_3.index t (0 : Fin 4), hb⟩ ⟨win1_3.index t (1 : Fin 4), hg⟩
    (iblk_at0 V c t _ _ rfl rfl) (iblk_at1 V c t _ _ rfl rfl) (iblk_at2 V c t _ _ rfl rfl) _ _ _).trans ?_
  refine congrArg (Cert.Mha.attn (V c main_v7) (V c main_v8) (V c main_v9)) (funext fun a => Fin.ext ?_)
  match a with
  | ⟨0, _⟩ => show win1_3.index t (0 : Fin 4) = win1_3.index t (0 : Fin 4) * 1 + 1 * (j 0).val; omega
  | ⟨1, _⟩ => show win1_3.index t (1 : Fin 4) * 2 + (j 1).val = win1_3.index t (1 : Fin 4) * 2 + 1 * (j 1).val; omega
  | ⟨2, _⟩ => show (j 2).val = win1_3.index t (2 : Fin 4) * 1024 + 1 * (j 2).val; omega
  | ⟨3, _⟩ => show (j 3).val = win1_3.index t (3 : Fin 4) * 64 + 1 * (j 3).val; omega

/-! ## The blocks tile the array -/

/-- An index of the array is in point `t`'s block iff each coordinate is in the block's range on its axis. -/
theorem mem_blk (t : Fin cfg1.N) (i : S8x16x1024x64.Idx) :
    i ∈ ((cfg1.win 3).blk t).view.set ↔ ∀ a : Fin 4, win1_3.index t a * S1x2x1024x64.size a ≤ (i a).val ∧ (i a).val < win1_3.index t a * S1x2x1024x64.size a + S1x2x1024x64.size a := by
  show i ∈ ((View.whole main_v10).slice (win1_3.rect t)).set ↔ _
  rw [View.set_slice_whole, Rect.mem_set_unit]
  exact Iff.rfl

/-- Index (b, hd, s, d) is in the block of the point whose block index is (b, hd / 2, 0, 0). -/
theorem cover (i : S8x16x1024x64.Idx) : ∃ t : Fin cfg1.N, (cfg1.win 3).flush t = true ∧ i ∈ ((cfg1.win 3).blk t).view.set := by
  have hi0 : (i 0).val < 8 := (i 0).isLt
  have hi1 : (i 1).val < 16 := (i 1).isLt
  have hi2 : (i 2).val < 1024 := (i 2).isLt
  have hi3 : (i 3).val < 64 := (i 3).isLt
  obtain ⟨t, ht⟩ := idx_onto ⟨(i 0).val, hi0⟩ ⟨(i 1).val / 2, by omega⟩
  have q0 : win1_3.index t (0 : Fin 4) = (i 0).val := congrFun ht 0
  have q1 : win1_3.index t (1 : Fin 4) = (i 1).val / 2 := congrFun ht 1
  have q2 : win1_3.index t (2 : Fin 4) = 0 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 2 ≤ (i 1).val ∧ (i 1).val < win1_3.index t (1 : Fin 4) * 2 + 2; omega
  | ⟨2, _⟩ => show win1_3.index t (2 : Fin 4) * 1024 ≤ (i 2).val ∧ (i 2).val < win1_3.index t (2 : Fin 4) * 1024 + 1024; omega
  | ⟨3, _⟩ => show win1_3.index t (3 : Fin 4) * 64 ≤ (i 3).val ∧ (i 3).val < win1_3.index t (3 : Fin 4) * 64 + 64; omega

/-! ## The array after the region -/

/-- THE ARRAY after the region: the attention output of the three arrays as the region finds them. -/
theorem final1 (c : Dev nD) :
    (dat1 (F := Ideal) V c).arrAt 3 cfg1.N = Cert.Mha.attn (V c main_v7) (V c main_v8) (V c main_v9) :=
  (dat1 (F := Ideal) V c).arrAt_eq_of_cover 3 (Cert.Mha.attn (V c main_v7) (V c main_v8) (V c main_v9))
    (fun t _ => flushed_eq V c t) cover

end Region

end Cert.KernelIdeal.AttnValue

end
-- ==== Proof.Dense2Pay.lean ====
/-
  The last linear layer's block, entry by entry.

  The body's payload for one block of 512 rows: the block of the input times the whole weight by a matrix product into
  a zero accumulator, plus the one-row bias repeated over the rows. Read at entry (p, e) this is the inner product of
  row p of the block with column e of the weight, plus entry e of the bias.
-/
import proofs.«110953_j7438883357444_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.DenseValue

open Cert.KernelIdeal Cert.KernelIdeal.Gen Idealize.ShloMosaic Idealize.ShloMosaic.TcCoe Idealize.ShloMosaic.ValueIdx

/-- The dimension numbers of the 512 × 1024 by 1024 × 1024 product: contract axis 1 of the left with axis 0 of the right. -/
abbrev D2 : DotDims S512x1024 S1024x1024 S512x1024 := dot_S512x1024_S1024x1024_S512x1024_1_0_0_1_n_n

theorem lhs2_0 (i : S512x1024.Idx) (q : D2.contr.Idx) : (D2.lhsIdx i q 0).val = (i 0).val := by
  unfold DotDims.lhsIdx
  rw [dif_neg (show ¬(0 : Fin S512x1024.rank) ∈ D2.lhsBatch by decide), dif_pos (show (0 : Fin S512x1024.rank) ∈ D2.lhsNonContracting by decide)]
  rfl
theorem lhs2_1 (i : S512x1024.Idx) (q : D2.contr.Idx) : (D2.lhsIdx i q 1).val = (q ⟨0, by decide⟩).val :=
  D2.lhsIdx_val_of_single rfl i q
theorem rhs2_0 (i : S512x1024.Idx) (q : D2.contr.Idx) : (D2.rhsIdx i q 0).val = (q ⟨0, by decide⟩).val :=
  D2.rhsIdx_val_of_single rfl i q
theorem rhs2_1 (i : S512x1024.Idx) (q : D2.contr.Idx) : (D2.rhsIdx i q 1).val = (i 1).val := by
  unfold DotDims.rhsIdx
  rw [dif_neg (show ¬(1 : Fin S1024x1024.rank) ∈ D2.rhsBatch by decide), dif_pos (show (1 : Fin S1024x1024.rank) ∈ D2.rhsNonContracting by decide)]
  rfl

/-- The matrix product into the zero accumulator, at entry (p, e): the inner product of row p with column e. -/
theorem matmul2_apply (a : FVec Ideal S512x1024 .bf16) (b : FVec Ideal S1024x1024 .bf16) (p : Fin 512) (e : Fin 1024) :
    matmul D2 none a b (constant S512x1024 .f32 0x00000000#32) (ix2 p e) = ∑ k : Fin 1024, a (ix2 p k) * b (ix2 k e) := by
  refine (Ideal.matmul_constant_zero_apply D2 none a b (ix2 p e)).trans ?_
  rw [← Equiv.sum_comp (ValueIdx.contrEquiv1 D2 1024 rfl rfl).symm]
  refine Finset.sum_congr rfl fun k _ => ?_
  have hk := ValueIdx.contrEquiv1_symm_val D2 1024 rfl rfl k
  have el : D2.lhsIdx (ix2 p e) ((ValueIdx.contrEquiv1 D2 1024 rfl rfl).symm k) = ix2 p k := funext fun a => Fin.ext (by
    match a with
    | ⟨0, _⟩ => exact lhs2_0 _ _
    | ⟨1, _⟩ => exact (lhs2_1 _ _).trans hk)
  have er : D2.rhsIdx (ix2 p e) ((ValueIdx.contrEquiv1 D2 1024 rfl rfl).symm k) = ix2 k e := funext fun a => Fin.ext (by
    match a with
    | ⟨0, _⟩ => exact (rhs2_0 _ _).trans hk
    | ⟨1, _⟩ => exact rhs2_1 _ _)
  rw [el, er]

/-- The one-row bias repeated over 512 rows, at entry (p, e): the bias at e. -/
theorem bias2_apply (x : FVec Ideal S1x1024 .f32) (p : Fin 512) (e : Fin 1024) :
    broadcastTo S512x1024 x broadcasts_S1x1024_S512x1024 (ix2 p e) = x (ix2 (0 : Fin 1) e) :=
  broadcastTo_apply x broadcasts_S1x1024_S512x1024 (ix2 p e) (ix2 (0 : Fin 1) e) (fun a => match a with
    | ⟨0, _⟩ => by show 0 = if (1 : Nat) = 1 then 0 else p.val; rw [if_pos rfl]
    | ⟨1, _⟩ => by show e.val = if (1024 : Nat) = 1 then 0 else e.val; rw [if_neg (by decide)])

/-- The payload of one block at entry (p, e). -/
theorem pay2_apply (x0 : FVec Ideal S512x1024 .bf16) (x1 : FVec Ideal S1024x1024 .bf16) (x2 : FVec Ideal S1x1024 .f32)
    (p : Fin 512) (e : Fin 1024) :
    k2_pay1 (F := Ideal) x0 x1 x2 (ix2 p e) = (∑ k : Fin 1024, x0 (ix2 p k) * x1 (ix2 k e)) + x2 (ix2 (0 : Fin 1) e) := by
  unfold k2_pay1
  rw [shapeCast_self, shapeCast_self, shapeCast_self]
  show matmul D2 none x0 x1 (constant S512x1024 .f32 0x00000000#32) (ix2 p e)
      + broadcastTo S512x1024 x2 broadcasts_S1x1024_S512x1024 (ix2 p e) = _
  rw [matmul2_apply, bias2_apply]

end Cert.KernelIdeal.DenseValue

end
-- ==== Proof.Dense2.lean ====
/-
  Region 2: the last linear layer, from its 16 row blocks to the whole array.

  Grid point t computes rows 512·t … 512·t + 511 of the result from the same rows of the input, the whole weight and
  the whole bias; the 16 blocks tile the 8192 × 1024 array. So after the last write-back the array is the linear layer
  of the three input arrays as the region found them, entry by entry.
-/
import proofs.«110953_j7438883357444_2_alg».proof.Proof.Gen.KernelIdeal.Frame
import proofs.«110953_j7438883357444_2_alg».proof.Proof.Spec
import proofs.«110953_j7438883357444_2_alg».proof.Proof.Dense2Pay
import Idealize.ShloMosaic.Lib.Pipeline.Value

noncomputable section

namespace Cert.KernelIdeal.DenseValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl

/-- The block indices at grid point t: the input rows and the output rows move with t, everything else stays at 0. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One block of the layer. If x0 is rows 512·T … 512·T + 511 of a0, x1 is a1 and x2 is a2, then the payload at (p, e)
    is the layer of a0, a1, a2 at (512·T + p, e). -/
theorem block2_apply (x0 : FVec Ideal S512x1024 .bf16) (x1 : FVec Ideal S1024x1024 .bf16) (x2 : FVec Ideal S1x1024 .f32)
    (a0 : S8192x1024.Idx → EReal) (a1 : S1024x1024.Idx → EReal) (a2 : S1x1024.Idx → EReal) (T : Nat)
    (h0 : ∀ (p : Fin 512) (k : Fin 1024) (r : Fin 8192), r.val = T * 512 + p.val → x0 (ix2 p k) = a0 (ix2 r k))
    (h1 : ∀ (k : Fin 1024) (e : Fin 1024), x1 (ix2 k e) = a1 (ix2 k e))
    (h2 : ∀ e : Fin 1024, x2 (ix2 (0 : Fin 1) e) = a2 (ix2 (0 : Fin 1) e))
    (j : S512x1024.Idx) (i : S8192x1024.Idx) (hi0 : (i 0).val = T * 512 + (j 0).val) (hi1 : (i 1).val = (j 1).val) :
    k2_pay1 (F := Ideal) x0 x1 x2 j = Cert.Mha.dense (M := 8192) (K := 1024) (N := 1024) a0 a1 a2 i := by
  obtain ⟨p, e, rfl⟩ : ∃ (p : Fin 512) (e : Fin 1024), j = ix2 p e := ⟨j 0, j 1, eq_ix2 j⟩
  obtain ⟨r, e', rfl⟩ : ∃ (r : Fin 8192) (e' : Fin 1024), i = ix2 r e' := ⟨i 0, i 1, eq_ix2 i⟩
  have hr : r.val = T * 512 + p.val := hi0
  obtain rfl : e' = e := Fin.ext hi1
  rw [pay2_apply, Cert.Mha.dense_apply, h2]
  exact congrArg (· + a2 (ix2 (0 : Fin 1) e')) (Finset.sum_congr rfl fun k _ => by rw [h0 p k r hr, h1])

/-- What grid point t writes back is block t of the layer of the arrays as the region finds them. -/
theorem flushed2_eq (c : Dev nD) (t : Fin cfg2.N) :
    (dat2 (F := Ideal) V c).flushed 3 t = ((cfg2.win 3).blk t).view.read (Elt Ideal)
      (Cert.Mha.dense (M := 8192) (K := 1024) (N := 1024) (V c main_v12) (V c main_v2) (V c main_v13)) := by
  show (cfg2.win 3).cut (grid2.coords t) ((dat2 V c).after 3 t) = _
  rw [after2_3]
  unfold out2_3
  rw [View.canon_unit_zero zero_off2]
  simp only [View.ld_unit_zero (S := S512x1024) zero_off2, View.ld_unit_zero (S := S1024x1024) zero_off2, View.ld_unit_zero (S := S1x1024) zero_off2]
  obtain ⟨e00, e01, e10, e11, e20, e21, e30, e31⟩ := index2 t
  funext j
  refine (block2_apply (iblk2 V c 0 t) (iblk2 V c 1 t) (iblk2 V c 2 t) (V c main_v12) (V c main_v2) (V c main_v13) t.val ?_ ?_ ?_ j
    (((cfg2.win 3).blk t).view.emb j) ?_ ?_)
  · intro p k r hr
    show V c main_v12 (((cfg2.win 0).blk t).view.emb (ix2 p k)) = V c main_v12 (ix2 r k)
    refine congrArg _ (funext fun a => Fin.ext ?_)
    match a with
    | ⟨0, _⟩ => show win2_0.index t (0 : Fin 2) * 512 + 1 * p.val = r.val; omega
    | ⟨1, _⟩ => show win2_0.index t (1 : Fin 2) * 1024 + 1 * k.val = k.val; omega
  · intro k e
    show V c main_v2 (((cfg2.win 1).blk t).view.emb (ix2 k e)) = V c main_v2 (ix2 k e)
    refine congrArg _ (funext fun a => Fin.ext ?_)
    match a with
    | ⟨0, _⟩ => show win2_1.index t (0 : Fin 2) * 1024 + 1 * k.val = k.val; omega
    | ⟨1, _⟩ => show win2_1.index t (1 : Fin 2) * 1024 + 1 * e.val = e.val; omega
  · intro e
    show V c main_v13 (((cfg2.win 2).blk t).view.emb (ix2 (0 : Fin 1) e)) = V c main_v13 (ix2 (0 : Fin 1) e)
    refine congrArg _ (funext fun a => Fin.ext ?_)
    match a with
    | ⟨0, _⟩ => show win2_2.index t (0 : Fin 2) * 1 + 1 * 0 = 0; omega
    | ⟨1, _⟩ => show win2_2.index t (1 : Fin 2) * 1024 + 1 * e.val = e.val; omega
  · show win2_3.index t (0 : Fin 2) * 512 + 1 * (j 0).val = t.val * 512 + (j 0).val; omega
  · show win2_3.index t (1 : Fin 2) * 1024 + 1 * (j 1).val = (j 1).val; omega

/-- An index of the array is in point t's block iff each coordinate is in the block's range on its axis. -/
theorem mem_blk2 (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v14).slice (win2_3.rect t)).set ↔ _
  rw [View.set_slice_whole, Rect.mem_set_unit]
  exact Iff.rfl

/-- Row r of the array is in the block of grid point r / 512. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hlt : (i 0).val / 512 < grid2.N := by rw [N_2]; omega
  obtain ⟨-, -, -, -, -, -, e30, e31⟩ := index2 ⟨(i 0).val / 512, hlt⟩
  refine ⟨⟨(i 0).val / 512, hlt⟩, flush2_3 _, ?_⟩
  rw [mem_blk2]
  intro a
  match a with
  | ⟨0, _⟩ =>
    show win2_3.index ⟨(i 0).val / 512, hlt⟩ (0 : Fin 2) * 512 ≤ (i 0).val ∧ (i 0).val < win2_3.index ⟨(i 0).val / 512, hlt⟩ (0 : Fin 2) * 512 + 512
    rw [e30]; show (i 0).val / 512 * 512 ≤ (i 0).val ∧ (i 0).val < (i 0).val / 512 * 512 + 512; omega
  | ⟨1, _⟩ =>
    show win2_3.index ⟨(i 0).val / 512, hlt⟩ (1 : Fin 2) * 1024 ≤ (i 1).val ∧ (i 1).val < win2_3.index ⟨(i 0).val / 512, hlt⟩ (1 : Fin 2) * 1024 + 1024
    omega

/-- The last linear layer's array after the region: the layer of the input, the weight and the bias as the region found them. -/
theorem final2 (c : Dev nD) :
    (dat2 (F := Ideal) V c).arrAt 3 cfg2.N = Cert.Mha.dense (M := 8192) (K := 1024) (N := 1024) (V c main_v12) (V c main_v2) (V c main_v13) :=
  (dat2 (F := Ideal) V c).arrAt_eq_of_cover 3 _ (fun t _ => flushed2_eq V c t) cover2

end Cert.KernelIdeal.DenseValue

end
-- ==== Proof.Consts.lean ====
/-
  The three float words whose values the proof needs: 0x42800000 is 64, whose square root is 8; 0x3E000000 is 1/8;
  so dividing by the square root of the first is multiplying by the second, on every extended real. And the maximum
  of a word with a fold of `max` that starts from that word is the fold.
-/
import Idealize.ShloMosaic.PureOps.Ideal
import Mathlib.Data.Finset.Fold

noncomputable section

namespace Cert.Mha.Consts

open Idealize.ShloMosaic

/-- The word 0x42800000 denotes 64. -/
theorem ofBits_64 : Ideal.ofBits .f32 0x42800000#32 = ((64 : ℝ) : EReal) := by
  simp [Ideal.ofBits, Ideal.ieee, -EReal.coe_mul]; norm_num

/-- The word 0x3E000000 denotes 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  rw [show (64 : ℝ) = 8 ^ 2 by norm_num, Real.sqrt_sq (by norm_num)]

/-- Dividing by the square root of the word 64 is multiplying by the word 1/8, at the infinities too. -/
theorem scale_eq (X : EReal) :
    Ideal.div X (Ideal.sqrt (Ideal.ofBits .f32 0x42800000#32)) = X * Ideal.ofBits .f32 0x3E000000#32 := by
  rw [ofBits_64, sqrt_64, Ideal.div_coe (by norm_num : (8 : ℝ) ≠ 0), ofBits_eighth]

/-- A fold of `max` is at least its starting value, so taking the maximum with that value again changes nothing. -/
theorem max_fold_self {n : Nat} (b : EReal) (f : Fin n → EReal) :
    max b ((Finset.univ : Finset (Fin n)).fold max b f) = (Finset.univ : Finset (Fin n)).fold max b f :=
  max_eq_right ((Finset.le_fold_max b).mpr (Or.inl le_rfl))

end Cert.Mha.Consts

end
-- ==== Proof.RefAttn.lean ====
/-
  The reference's attention stage is the specification's `attn` of its three slices.

  The reference computes, for each head, the scores as a host dot product divided by the square root of the word 64
  (the specification multiplies by the word 1/8: the same number on every extended real), the row maximum as a host
  reduce from minus infinity followed by one more maximum with minus infinity (which changes nothing), the shifted
  exponentials, their row sums from the zero word, the quotient, and the weighted sum of the value rows. Each stage is
  read at coordinates and matched with the specification's `score`, `rowMax`, `expo`, `prob` and `attn`.
-/
import proofs.«110953_j7438883357444_2_alg».proof.Proof.Gen.ReferenceIdeal.Read
import proofs.«110953_j7438883357444_2_alg».proof.Proof.Spec
import proofs.«110953_j7438883357444_2_alg».proof.Proof.Consts
import Idealize.ShloMosaic.PureOps.Ideal.Laws
import Idealize.ShloMosaic.Lib.ValueIdx

noncomputable section

namespace Cert.ReferenceIdeal.RefAttn

open Cert.ReferenceIdeal Cert.ReferenceIdeal.Gen Cert.ReferenceIdeal.Read
open Idealize.ShloMosaic Idealize.ShloMosaic.TcCoe Idealize.ShloMosaic.ValueIdx Cert.Mha

variable (x0 : S8x1024x1024.Idx → EReal) (x1 : S1024x3072.Idx → EReal) (x2 : S3072.Idx → EReal)

/-- The reduction over the key axis, as the library's lift wants it. -/
theorem hred : S8x16x1024x1024.Reduces [(3 : Fin 4)] S8x16x1024 := by decide

/-- A reduced index (b, h, s) with key position `k` put back is (b, h, s, k). -/
theorem lift_ix4 (b : Fin 8) (h : Fin 16) (s : Fin 1024) (k : Fin (S8x16x1024x1024.size 3)) :
    hred.lift (ix3 b h s) k = ix4 b h s (⟨k.val, k.isLt⟩ : Fin 1024) := by
  funext c; apply Fin.ext
  fin_cases c <;> rfl

/-- The reference's scaled scores are the specification's. -/
theorem score_ref (b : Fin 8) (h : Fin 16) (s t : Fin 1024) :
    val_main_v12 (F := Ideal) x0 x1 x2 (ix4 b h s t)
      = score (val_main_v6 (F := Ideal) x0 x1 x2) (val_main_v7 (F := Ideal) x0 x1 x2) b h s t := by
  rw [val_main_v12_apply, val_main_v9_apply, val_main_v11_apply, val_main_v10_apply, val_main_cst_apply]
  have el : ∀ k : Fin 64, lidx_main_v9 (ix4 b h s t) k = ix4 b h s k := fun k => funext fun a => by
    match a with | ⟨0, _⟩ => rfl | ⟨1, _⟩ => rfl | ⟨2, _⟩ => rfl | ⟨3, _⟩ => rfl
  have er : ∀ k : Fin 64, ridx_main_v9 (ix4 b h s t) k = ix4 b h t k := fun k => funext fun a => by
    match a with | ⟨0, _⟩ => rfl | ⟨1, _⟩ => rfl | ⟨2, _⟩ => rfl | ⟨3, _⟩ => rfl
  simp only [el, er]
  exact Consts.scale_eq _

/-- The reference's row maximum is the specification's. -/
theorem max_ref (b : Fin 8) (h : Fin 16) (s : Fin 1024) :
    val_main_v15 (F := Ideal) x0 x1 x2 (ix3 b h s)
      = rowMax (score (val_main_v6 (F := Ideal) x0 x1 x2) (val_main_v7 (F := Ideal) x0 x1 x2) b h s) := by
  rw [val_main_v15_apply, val_main_v14_apply, val_main_cst_1_apply]
  unfold val_main_v13
  rw [Host.reduce_eq_fold_single FloatOps.maximumf _ _ reducesTo_S8x16x1024x1024_S8x16x1024_d3 hred h_S_]
  have hf : (val_main_v12 (F := Ideal) x0 x1 x2 ∘ hred.lift (ix3 b h s))
      = (fun t : Fin 1024 => score (val_main_v6 (F := Ideal) x0 x1 x2) (val_main_v7 (F := Ideal) x0 x1 x2) b h s t) :=
    funext fun t => (congrArg (val_main_v12 (F := Ideal) x0 x1 x2) (lift_ix4 b h s t)).trans (score_ref x0 x1 x2 b h s _)
  show max (Ideal.ofBits .f32 0xFF800000#32) (Finset.fold max (Ideal.ofBits .f32 0xFF800000#32)
      (val_main_v12 (F := Ideal) x0 x1 x2 ∘ hred.lift (ix3 b h s)) (Finset.univ : Finset (Fin 1024))) = _
  rw [hf]
  exact Consts.max_fold_self _ _

/-- The reference's shifted exponentials are the specification's. -/
theorem expo_ref (b : Fin 8) (h : Fin 16) (s t : Fin 1024) :
    val_main_v19 (F := Ideal) x0 x1 x2 (ix4 b h s t)
      = expo (val_main_v6 (F := Ideal) x0 x1 x2) (val_main_v7 (F := Ideal) x0 x1 x2) b h s t := by
  rw [val_main_v19_apply, val_main_v18_apply, val_main_v17_apply, val_main_v16_apply]
  have e : idx_main_v16 (idx_main_v17 (ix4 b h s t)) = ix3 b h s := funext fun a => by
    match a with | ⟨0, _⟩ => rfl | ⟨1, _⟩ => rfl | ⟨2, _⟩ => rfl
  rw [e, score_ref, max_ref]
  rfl

/-- The reference's row sums of exponentials are the specification's. -/
theorem sum_ref (b : Fin 8) (h : Fin 16) (s : Fin 1024) :
    val_main_v20 (F := Ideal) x0 x1 x2 (ix3 b h s)
      = ∑ t : Fin 1024, expo (val_main_v6 (F := Ideal) x0 x1 x2) (val_main_v7 (F := Ideal) x0 x1 x2) b h s t := by
  rw [val_main_v20_apply, val_main_cst_2_apply]
  show Ideal.ofBits .f32 0x00000000#32 + _ = _
  rw [Ideal.ofBits_zero_f32, zero_add]
  refine Finset.sum_congr rfl fun t _ => ?_
  have e : idx_main_v20 (ix3 b h s) t = ix4 b h s t := funext fun a => by
    match a with | ⟨0, _⟩ => rfl | ⟨1, _⟩ => rfl | ⟨2, _⟩ => rfl | ⟨3, _⟩ => rfl
  rw [e, expo_ref]

/-- The reference's softmax weights are the specification's. -/
theorem prob_ref (b : Fin 8) (h : Fin 16) (s t : Fin 1024) :
    val_main_v23 (F := Ideal) x0 x1 x2 (ix4 b h s t)
      = prob (val_main_v6 (F := Ideal) x0 x1 x2) (val_main_v7 (F := Ideal) x0 x1 x2) b h s t := by
  rw [val_main_v23_apply, val_main_v22_apply, val_main_v21_apply]
  have e : idx_main_v21 (idx_main_v22 (ix4 b h s t)) = ix3 b h s := funext fun a => by
    match a with | ⟨0, _⟩ => rfl | ⟨1, _⟩ => rfl | ⟨2, _⟩ => rfl
  rw [e, expo_ref, sum_ref]
  rfl

/-- The reference's attention output is the specification's `attn` of the reference's three slices. -/
theorem attn_ref : val_main_v24 (F := Ideal) x0 x1 x2
    = attn (val_main_v6 (F := Ideal) x0 x1 x2) (val_main_v7 (F := Ideal) x0 x1 x2) (val_main_v8 (F := Ideal) x0 x1 x2) := by
  funext j
  obtain ⟨b, h, s, d, rfl⟩ : ∃ (b : Fin 8) (h : Fin 16) (s : Fin 1024) (d : Fin 64), j = ix4 b h s d :=
    ⟨j 0, j 1, j 2, j 3, eq_ix4 j⟩
  rw [val_main_v24_apply, attn_apply]
  refine Finset.sum_congr rfl fun t _ => ?_
  have el : lidx_main_v24 (ix4 b h s d) t = ix4 b h s t := funext fun a => by
    match a with | ⟨0, _⟩ => rfl | ⟨1, _⟩ => rfl | ⟨2, _⟩ => rfl | ⟨3, _⟩ => rfl
  have er : ridx_main_v24 (ix4 b h s d) t = ix4 b h t d := funext fun a => by
    match a with | ⟨0, _⟩ => rfl | ⟨1, _⟩ => rfl | ⟨2, _⟩ => rfl | ⟨3, _⟩ => rfl
  rw [el, er, prob_ref]

end Cert.ReferenceIdeal.RefAttn

end
-- ==== Proof.RefDense.lean ====
/-
  The reference's two linear stages are the specification's `dense` seen through reshapes.

  The reference multiplies the [8, 1024, 1024] input by the weight as a rank-3 dot product and adds the bias broadcast
  over batch and position; the specification's `dense` works on the input flattened to 8192 rows with the bias as a
  one-row matrix. Flattening puts entry (b, s, ·) in row b·1024 + s, so the two agree entry by entry once each side
  is read at the same row-major position: the first stage when both are seen as [8, 1024, 16, 192] (column
  h·192 + j), the second when the attention output [8, 1024, 16, 64] is seen as rows of 1024 features (feature
  h·64 + d) and the result as [8, 1024, 1024].
-/
import proofs.«110953_j7438883357444_2_alg».proof.Proof.Gen.ReferenceIdeal.Read
import proofs.«110953_j7438883357444_2_alg».proof.Proof.Spec
import Idealize.ShloMosaic.Lib.Pipeline.Value
import Idealize.ShloMosaic.Lib.ValueIdx

noncomputable section

namespace Cert.ReferenceIdeal.RefDense

open Cert.ReferenceIdeal Cert.ReferenceIdeal.Gen Cert.ReferenceIdeal.Read
open Idealize.ShloMosaic Idealize.ShloMosaic.TcCoe Idealize.ShloMosaic.ValueIdx Cert.Mha

/-- The flattened shapes the specification's linear layers work on. -/
abbrev R8192x1024 : Shape := ⟨2, ![8192, 1024]⟩
abbrev R8192x3072 : Shape := ⟨2, ![8192, 3072]⟩
abbrev R1x3072 : Shape := ⟨2, ![1, 3072]⟩
abbrev R1x1024 : Shape := ⟨2, ![1, 1024]⟩

variable (x0 : S8x1024x1024.Idx → EReal) (x1 : S1024x3072.Idx → EReal) (x2 : S3072.Idx → EReal)
  (x3 : S1024x1024.Idx → EReal) (x4 : S1024.Idx → EReal)

/-- The first stage: the fused projection with its bias, seen as [8, 1024, 16, 192]. -/
theorem stageA (h0 : S8x1024x1024.ShapeCasts R8192x1024) (h3 : S3072.ShapeCasts R1x3072)
    (h5 : R8192x3072.ShapeCasts S8x1024x16x192) :
    shapeCast S8x1024x16x192
        (dense (M := 8192) (K := 1024) (N := 3072) (shapeCast R8192x1024 x0 h0) x1 (shapeCast R1x3072 x2 h3)) h5
      = val_main_v4 (F := Ideal) x0 x1 x2 := by
  funext i
  obtain ⟨b, s, h, j, rfl⟩ : ∃ (b : Fin 8) (s : Fin 1024) (h : Fin 16) (j : Fin 192), i = ix4 b s h j :=
    ⟨i 0, i 1, i 2, i 3, eq_ix4 i⟩
  have hb : b.val < 8 := b.isLt
  have hs : s.val < 1024 := s.isLt
  have hh : h.val < 16 := h.isLt
  have hj : j.val < 192 := j.isLt
  obtain ⟨r, hr⟩ : ∃ r : Fin 8192, r.val = b.val * 1024 + s.val := ⟨⟨b.val * 1024 + s.val, by omega⟩, rfl⟩
  obtain ⟨e, he⟩ : ∃ e : Fin 3072, e.val = h.val * 192 + j.val := ⟨⟨h.val * 192 + j.val, by omega⟩, rfl⟩
  rw [shapeCast_apply _ h5 (ix4 b s h j) (ix2 r e) (by
        rw [Shape.rowMajor_val_two, Shape.rowMajor_val_four]
        show r.val * 3072 + e.val = ((b.val * 1024 + s.val) * 16 + h.val) * 192 + j.val
        omega)]
  rw [dense_apply]
  rw [val_main_v4_apply, val_main_v3_apply, val_main_v0_apply, val_main_v2_apply, val_main_v1_apply]
  show _ = (∑ k : Fin 1024, _) + _
  have eb : shapeCast R1x3072 x2 h3 (ix2 (0 : Fin 1) e) = x2 (ix1 e) :=
    shapeCast_apply x2 h3 (ix2 (0 : Fin 1) e) (ix1 e) (by
      rw [Shape.rowMajor_val_one, Shape.rowMajor_val_two]
      show e.val = 0 * 3072 + e.val
      rw [Nat.zero_mul, Nat.zero_add])
  have ei : idx_main_v1 (idx_main_v2 (idx_main_v4 (ix4 b s h j))) = ix1 e := funext fun a => Fin.ext (by
    match a with
    | ⟨0, _⟩ => show (((b.val * 1024 + s.val) * 16 + h.val) * 192 + j.val) % 3072 = e.val; omega)
  rw [eb, ei]
  refine congrArg (· + x2 (ix1 e)) (Finset.sum_congr rfl fun k _ => ?_)
  have e1 : shapeCast R8192x1024 x0 h0 (ix2 r k) = x0 (ix3 b s k) :=
    shapeCast_apply x0 h0 (ix2 r k) (ix3 b s k) (by
      rw [Shape.rowMajor_val_three, Shape.rowMajor_val_two]
      show (b.val * 1024 + s.val) * 1024 + k.val = r.val * 1024 + k.val
      omega)
  have e2 : lidx_main_v0 (idx_main_v4 (ix4 b s h j)) k = ix3 b s k := funext fun a => Fin.ext (by
    match a with
    | ⟨0, _⟩ => show (((b.val * 1024 + s.val) * 16 + h.val) * 192 + j.val) / 3145728 = b.val; omega
    | ⟨1, _⟩ => show (((b.val * 1024 + s.val) * 16 + h.val) * 192 + j.val) / 3072 % 1024 = s.val; omega
    | ⟨2, _⟩ => rfl)
  have e3 : ridx_main_v0 (idx_main_v4 (ix4 b s h j)) k = ix2 k e := funext fun a => Fin.ext (by
    match a with
    | ⟨0, _⟩ => rfl
    | ⟨1, _⟩ => show (((b.val * 1024 + s.val) * 16 + h.val) * 192 + j.val) % 3072 = e.val; omega)
  rw [e1, e2, e3]

/-- The second stage: the output projection with its bias, applied to the attention output with the heads back beside
    the features, seen as [8, 1024, 1024]. -/
theorem stageC (h12 : S8x1024x16x64.ShapeCasts R8192x1024) (h13 : S1024.ShapeCasts R1x1024)
    (h15 : R8192x1024.ShapeCasts S8x1024x1024) :
    shapeCast S8x1024x1024
        (dense (M := 8192) (K := 1024) (N := 1024) (shapeCast R8192x1024 (val_main_v25 (F := Ideal) x0 x1 x2) h12) x3
          (shapeCast R1x1024 x4 h13)) h15
      = val_main_v30 (F := Ideal) x0 x1 x2 x3 x4 := by
  funext i
  obtain ⟨b, s, e, rfl⟩ : ∃ (b : Fin 8) (s : Fin 1024) (e : Fin 1024), i = ix3 b s e := ⟨i 0, i 1, i 2, eq_ix3 i⟩
  have hb : b.val < 8 := b.isLt
  have hs : s.val < 1024 := s.isLt
  have he : e.val < 1024 := e.isLt
  obtain ⟨r, hr⟩ : ∃ r : Fin 8192, r.val = b.val * 1024 + s.val := ⟨⟨b.val * 1024 + s.val, by omega⟩, rfl⟩
  rw [shapeCast_apply _ h15 (ix3 b s e) (ix2 r e) (by
        rw [Shape.rowMajor_val_two, Shape.rowMajor_val_three]
        show r.val * 1024 + e.val = (b.val * 1024 + s.val) * 1024 + e.val
        omega)]
  rw [dense_apply]
  rw [val_main_v30_apply, val_main_v27_apply, val_main_v29_apply, val_main_v28_apply]
  show _ = (∑ k : Fin 1024, _) + _
  have eb : shapeCast R1x1024 x4 h13 (ix2 (0 : Fin 1) e) = x4 (ix1 e) :=
    shapeCast_apply x4 h13 (ix2 (0 : Fin 1) e) (ix1 e) (by
      rw [Shape.rowMajor_val_one, Shape.rowMajor_val_two]
      show e.val = 0 * 1024 + e.val
      omega)
  have ei : idx_main_v28 (idx_main_v29 (ix3 b s e)) = ix1 e := funext fun a => Fin.ext (by
    match a with
    | ⟨0, _⟩ => rfl)
  rw [eb, ei]
  refine congrArg (· + x4 (ix1 e)) (Finset.sum_congr rfl fun k _ => ?_)
  have hk : k.val < 1024 := k.isLt
  obtain ⟨hd, hhd⟩ : ∃ hd : Fin 16, hd.val = k.val / 64 := ⟨⟨k.val / 64, by omega⟩, rfl⟩
  obtain ⟨d, hdd⟩ : ∃ d : Fin 64, d.val = k.val % 64 := ⟨⟨k.val % 64, by omega⟩, rfl⟩
  have e1 : shapeCast R8192x1024 (val_main_v25 (F := Ideal) x0 x1 x2) h12 (ix2 r k)
      = val_main_v25 (F := Ideal) x0 x1 x2 (ix4 b s hd d) :=
    shapeCast_apply _ h12 (ix2 r k) (ix4 b s hd d) (by
      rw [Shape.rowMajor_val_four, Shape.rowMajor_val_two]
      show ((b.val * 1024 + s.val) * 16 + hd.val) * 64 + d.val = r.val * 1024 + k.val
      omega)
  have e2 : idx_main_v26 (lidx_main_v27 (ix3 b s e) k) = ix4 b s hd d := funext fun a => Fin.ext (by
    match a with
    | ⟨0, _⟩ => show ((b.val * 1024 + s.val) * 1024 + k.val) / 1048576 = b.val; omega
    | ⟨1, _⟩ => show ((b.val * 1024 + s.val) * 1024 + k.val) / 1024 % 1024 = s.val; omega
    | ⟨2, _⟩ => show ((b.val * 1024 + s.val) * 1024 + k.val) / 64 % 16 = hd.val; omega
    | ⟨3, _⟩ => show ((b.val * 1024 + s.val) * 1024 + k.val) % 64 = d.val; omega)
  have e3 : ridx_main_v27 (ix3 b s e) k = ix2 k e := funext fun a => Fin.ext (by
    match a with
    | ⟨0, _⟩ => rfl
    | ⟨1, _⟩ => rfl)
  rw [e1, val_main_v26_apply, e2, e3]

end Cert.ReferenceIdeal.RefDense

end
-- ==== Proof.Bridge.lean ====
/-
  The kernel program's result and the reference's are one function of the five arguments.

  Stage by stage: the first linear layer seen as [8, 1024, 16, 192] is the reference's fused projection; the same
  transposition and the same three slices are then applied on both sides; the specification's attention of those slices
  is the reference's attention stage; the same transposition back; and the second linear layer seen as [8, 1024, 1024]
  is the reference's output projection.
-/
import proofs.«110953_j7438883357444_2_alg».proof.Proof.Fold
import proofs.«110953_j7438883357444_2_alg».proof.Proof.RefAttn
import proofs.«110953_j7438883357444_2_alg».proof.Proof.RefDense

noncomputable section

namespace Cert.Proof.Bridge

open Idealize.ShloMosaic Idealize.ShloMosaic.TcCoe

variable (a0 : Cert.ReferenceIdeal.S8x1024x1024.Idx → EReal) (a1 : Cert.ReferenceIdeal.S1024x3072.Idx → EReal)
  (a2 : Cert.ReferenceIdeal.S3072.Idx → EReal) (a3 : Cert.ReferenceIdeal.S1024x1024.Idx → EReal)
  (a4 : Cert.ReferenceIdeal.S1024.Idx → EReal)

/-- The kernel's transposed first-layer output is the reference's. -/
theorem qkv_eq : Cert.KernelIdeal.Fold.qkvK a0 a1 a2 = Cert.ReferenceIdeal.Read.val_main_v5 (F := Ideal) a0 a1 a2 := by
  unfold Cert.KernelIdeal.Fold.qkvK Cert.ReferenceIdeal.Read.val_main_v5
  rw [← Cert.ReferenceIdeal.RefDense.stageA a0 a1 a2 Cert.KernelIdeal.Gen.shapeCasts_S8x1024x1024_S8192x1024
    Cert.KernelIdeal.Gen.shapeCasts_S3072_S1x3072 Cert.KernelIdeal.Gen.shapeCasts_S8192x3072_S8x1024x16x192]

/-- The kernel's attention output is the reference's. -/
theorem attn_eq : Cert.KernelIdeal.Fold.attnK a0 a1 a2 = Cert.ReferenceIdeal.Read.val_main_v24 (F := Ideal) a0 a1 a2 := by
  unfold Cert.KernelIdeal.Fold.attnK
  rw [qkv_eq, Cert.ReferenceIdeal.RefAttn.attn_ref]
  rfl

/-- The kernel program's result is the reference's. -/
theorem res_eq : Cert.KernelIdeal.Fold.resK a0 a1 a2 a3 a4 = Cert.ReferenceIdeal.Read.val_main_v30 (F := Ideal) a0 a1 a2 a3 a4 := by
  unfold Cert.KernelIdeal.Fold.resK
  rw [attn_eq]
  rw [← Cert.ReferenceIdeal.RefDense.stageC a0 a1 a2 a3 a4 Cert.KernelIdeal.Gen.shapeCasts_S8x1024x16x64_S8192x1024
    Cert.KernelIdeal.Gen.shapeCasts_S1024_S1x1024 Cert.KernelIdeal.Gen.shapeCasts_S8192x1024_S8x1024x1024]
  rfl

end Cert.Proof.Bridge

end
-- ==== Proof.lean ====
/-
  Multi-head attention as three kernels — a fused query/key/value projection, softmax attention two heads at a time,
  an output projection — against the plain array program, on the extended reals.

  Both programs compute, for input x, weights Wqkv, Wo and biases bqkv, bo: the rows of x times Wqkv plus bqkv; split
  per head into queries, keys and values of 64 features; for each head the softmax over key positions of the scaled
  inner products of query and key rows, applied to the value rows; the heads' outputs side by side times Wo plus bo.
  The kernels tile the rows in blocks of 512 and the heads in pairs, round their operands to bf16 (the identity here)
  and scale the scores by the float 1/8 where the array program divides by the square root of 64: the same number, so
  the same function at every extended real — the precondition that the inputs are finite is never opened.

  The pieces: `Spec` states a linear layer and softmax attention index by index; `Dense0`, `AttnBlock`, `Dense2`
  show that each kernel leaves in its output array that function of the arrays it finds; `Run` and `Fold` read the
  kernel program's result back through its seven segments to the five arguments; `RefAttn` and `RefDense` read the
  array program's stages as the same functions; `Bridge` joins the two. The frames of the two kernel programs are
  generated; the array program's frame is its generated run with the result dropped; nothing was rewritten by the
  idealization, so there is nothing to preserve.
-/
import proofs.«110953_j7438883357444_2_alg».proof.Defs
import proofs.«110953_j7438883357444_2_alg».proof.Proof.Gen.Kernel
import proofs.«110953_j7438883357444_2_alg».proof.Proof.Gen.Kernel.Frame
import proofs.«110953_j7438883357444_2_alg».proof.Proof.Gen.KernelIdeal
import proofs.«110953_j7438883357444_2_alg».proof.Proof.Gen.KernelIdeal.Frame
import proofs.«110953_j7438883357444_2_alg».proof.Proof.Gen.ReferenceIdeal
import proofs.«110953_j7438883357444_2_alg».proof.Proof.Gen.Pre_finite_inputs
import proofs.«110953_j7438883357444_2_alg».proof.Proof.Gen.ReferenceIdeal.Run
import proofs.«110953_j7438883357444_2_alg».proof.Proof.Gen.ReferenceIdeal.Read
import proofs.«110953_j7438883357444_2_alg».proof.Proof.Run
import proofs.«110953_j7438883357444_2_alg».proof.Proof.Fold
import proofs.«110953_j7438883357444_2_alg».proof.Proof.Dense0
import proofs.«110953_j7438883357444_2_alg».proof.Proof.AttnBlock
import proofs.«110953_j7438883357444_2_alg».proof.Proof.Dense2
import proofs.«110953_j7438883357444_2_alg».proof.Proof.Bridge
import Idealize.ShloMosaic.Adequacy
import Idealize.ShloMosaic.Init

noncomputable section

namespace Cert.Proof

open Idealize.ShloMosaic Idealize.ShloMosaic.TcCoe Idealize.SL.Sem

/-- The three kernels' value lemmas, as the fold through the program takes them. -/
theorem regionValues : Cert.KernelIdeal.Fold.RegionValues :=
  ⟨fun V c => Cert.KernelIdeal.DenseValue.final0 V c,
   fun V c => Cert.KernelIdeal.AttnValue.final1 V c,
   fun V c => Cert.KernelIdeal.DenseValue.final2 V c⟩

theorem frame_k : Cert.frame_Kernel := fun m ρ _ => Cert.Kernel.Gen.frame m ρ

theorem frame_ki : Cert.frame_KernelIdeal := fun m ρ _ => Cert.KernelIdeal.Gen.frame m ρ

/-- The array program's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result: the kernel program's is
    `resK` of its arguments (the run read through the fold), the array program's is its last stage of its arguments
    (its run), the arguments agree, and the two functions are one (`Bridge.res_eq`). -/
theorem algebraic : Cert.algebraic_KernelIdeal_ReferenceIdeal := by
  intro m ρ m' ρ' _ hagree
  refine ⟨fun c => Cert.KernelIdeal.Fold.resK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Fold.result_eq m ρ c regionValues), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v30_eq, (hagree c).1, (hagree c).2.1, (hagree c).2.2.1, (hagree c).2.2.2.1,
      (hagree c).2.2.2.2]
    exact (Cert.Proof.Bridge.res_eq _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
